-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16 : Shape := ⟨2, ![10000, 16]⟩
abbrev S2x640000 : Shape := ⟨2, ![2, 640000]⟩
abbrev S16x128 : Shape := ⟨2, ![16, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S10000x16 : S_.BroadcastsInDim S10000x16 (![] : Fin 0 → Fin S10000x16.rank)
  reducesTo_S10000x16_S_d0_1 : S10000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S3x128 .f32) (main_arg6 : FVec F S128x1 .f32) (main_arg7 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S10000x16 .f32) (main_arg1 : IVec S2x640000 32) (main_arg2 : FVec F S16x128 .f32) (main_arg3 : FVec F S3x128x128 .f32) (main_arg4 : FVec F S3x128x128 .f32) (main_arg5 : FVec F S3x128 .f32) (main_arg6 : FVec F S128x1 .f32) (main_arg7 : FVec F S1 .f32) : IVec S_ 1 :=
  let main_v0 : FVec F S10000x16 .f32 := Host.absf main_arg0
  let main_cst : FVec F S_ .f32 := constant S_ .f32 0x7F800000#32
  let main_v1 : FVec F S10000x16 .f32 := broadcastInDim S10000x16 ![] bcast_S_S10000x16 main_cst
  let main_v2 : IVec S10000x16 1 := cmpf .olt main_v0 main_v1
  let main_c : IVec S_ 1 := constantI S_ 1 1#1
  let main_v3 : IVec S_ 1 := (fun x v => Host.reduce IntOp.andi x v reducesTo_S10000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S10000x16 : Shape := ⟨2, ![10000, 16]⟩
abbrev S2x640000 : Shape := ⟨2, ![2, 640000]⟩
abbrev S16x128 : Shape := ⟨2, ![16, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S1x128x128 : Shape := ⟨3, ![1, 128, 128]⟩
abbrev S128x128 : Shape := ⟨2, ![128, 128]⟩
abbrev S10000x128 : Shape := ⟨2, ![10000, 128]⟩
abbrev S1000x16 : Shape := ⟨2, ![1000, 16]⟩
abbrev S1000x128 : Shape := ⟨2, ![1000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S128 : Shape := ⟨1, ![128]⟩
abbrev S1x1 : Shape := ⟨2, ![1, 1]⟩
abbrev S10000x1 : Shape := ⟨2, ![10000, 1]⟩
abbrev S1000x1 : Shape := ⟨2, ![1000, 1]⟩
abbrev S10000 : Shape := ⟨1, ![10000]⟩

abbrev nBuf : Space → Nat
  | .hbm => 81
  | .vmem => 40
  | .smem => 0
  | _ => 0

abbrev bufTy : (tb : Table) → Fin (tcTables nBuf tb) → BufTy
  | .hbm, ⟨0, _⟩ => ⟨S10000x16, .f32⟩
  | .hbm, ⟨1, _⟩ => ⟨S2x640000, .i32⟩
  | .hbm, ⟨2, _⟩ => ⟨S16x128, .f32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S128x1, .f32⟩
  | .hbm, ⟨7, _⟩ => ⟨S1, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S1x128x128, .f32⟩
  | .hbm, ⟨13, _⟩ => ⟨S128x128, .f32⟩
  | .hbm, ⟨14, _⟩ => ⟨S1x128x128, .f32⟩
  | .hbm, ⟨15, _⟩ => ⟨S128x128, .f32⟩
  | .hbm, ⟨16, _⟩ => ⟨S10000x128, .f32⟩
  | .hbm, ⟨17, _⟩ => ⟨S10000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S10000x128, .f32⟩
  | .hbm, ⟨29, _⟩ => ⟨S640000x1, .i32⟩
  | .hbm, ⟨30, _⟩ => ⟨S10000x128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S1x128x128, .f32⟩
  | .hbm, ⟨35, _⟩ => ⟨S128x128, .f32⟩
  | .hbm, ⟨36, _⟩ => ⟨S1x128x128, .f32⟩
  | .hbm, ⟨37, _⟩ => ⟨S128x128, .f32⟩
  | .hbm, ⟨38, _⟩ => ⟨S10000x128, .f32⟩
  | .hbm, ⟨39, _⟩ => ⟨S10000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S10000x128, .f32⟩
  | .hbm, ⟨51, _⟩ => ⟨S640000x1, .i32⟩
  | .hbm, ⟨52, _⟩ => ⟨S10000x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S1x128x128, .f32⟩
  | .hbm, ⟨57, _⟩ => ⟨S128x128, .f32⟩
  | .hbm, ⟨58, _⟩ => ⟨S1x128x128, .f32⟩
  | .hbm, ⟨59, _⟩ => ⟨S128x128, .f32⟩
  | .hbm, ⟨60, _⟩ => ⟨S10000x128, .f32⟩
  | .hbm, ⟨61, _⟩ => ⟨S10000x128, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x128, .f32⟩
  | .hbm, ⟨71, _⟩ => ⟨S_, .f32⟩
  | .hbm, ⟨72, _⟩ => ⟨S10000x128, .f32⟩
  | .hbm, ⟨73, _⟩ => ⟨S640000x1, .i32⟩
  | .hbm, ⟨74, _⟩ => ⟨S10000x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S1x1, .f32⟩
  | .hbm, ⟨79, _⟩ => ⟨S10000x1, .f32⟩
  | .hbm, ⟨80, _⟩ => ⟨S10000, .f32⟩
  | .local _ .vmem, ⟨0, _⟩ => ⟨S1000x16, .f32⟩
  | .local _ .vmem, ⟨1, _⟩ => ⟨S1000x16, .f32⟩
  | .local _ .vmem, ⟨2, _⟩ => ⟨S16x128, .f32⟩
  | .local _ .vmem, ⟨3, _⟩ => ⟨S128x128, .f32⟩
  | .local _ .vmem, ⟨4, _⟩ => ⟨S128x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1x128, .f32⟩
  | .local _ .vmem, ⟨25, _⟩ => ⟨S128x128, .f32⟩
  | .local _ .vmem, ⟨26, _⟩ => ⟨S128x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S1x128, .f32⟩
  | .local _ .vmem, ⟨36, _⟩ => ⟨S128x1, .f32⟩
  | .local _ .vmem, ⟨37, _⟩ => ⟨S1x1, .f32⟩
  | .local _ .vmem, ⟨38, _⟩ => ⟨S1000x1, .f32⟩
  | .local _ .vmem, ⟨39, _⟩ => ⟨S1000x1, .f32⟩
  | _, _ => ⟨S10000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_c_4 : Ref sig .tc := ⟨.hbm, 62, rfl⟩
abbrev main_v45 : Ref sig .tc := ⟨.hbm, 63, rfl⟩
abbrev main_v46 : Ref sig .tc := ⟨.hbm, 64, rfl⟩
abbrev main_c_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S3x128x128_S1x128x128_0_0_0 : S3x128x128.Slices ![0, 0, 0] S1x128x128
  shapeCasts_S1x128x128_S128x128 : S1x128x128.ShapeCasts S128x128
  inb_S1000x16_S1000x16_0_0 : ∀ a, (![0, 0] : Fin 2 → Nat) a + S1000x16.size a ≤ S1000x16.size a
  h_S1000x16 : 0 < S1000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1000x128_S1000x128_0_0 : ∀ a, (![0, 0] : Fin 2 → Nat) a + S1000x128.size a ≤ S1000x128.size a
  h_S1000x128 : 0 < S1000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_1_0_0 : S3x128x128.Slices ![1, 0, 0] S1x128x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S10000x1_S10000 : S10000x1.ShapeCasts S10000
  dot_S1000x16_S16x128_S1000x128_1_0_0_1_n_n_wf : DotDims.WF S1000x16 S16x128 S1000x128 [1] [0] [0] [1] [] []
  dot_S1000x128_S128x128_S1000x128_1_0_0_1_n_n_wf : DotDims.WF S1000x128 S128x128 S1000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16.size a ≤ S10000x16.size a
  hwx0_0 : ∀ i : grid0.Coords, EltTy.bits .f32 = 32 ∨ (Rect.block (s := S10000x16) S1000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S10000x128.size a
  hwx0_4 : ∀ i : grid0.Coords, EltTy.bits .f32 = 32 ∨ (Rect.block (s := S10000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S10000x128.size a
  hwx2_1 : ∀ i : grid2.Coords, EltTy.bits .f32 = 32 ∨ (Rect.block (s := S10000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S10000x128.size a
  hwx2_5 : ∀ i : grid2.Coords, EltTy.bits .f32 = 32 ∨ (Rect.block (s := S10000x128) S1000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S10000x128.size a
  hwx2_6 : ∀ i : grid2.Coords, EltTy.bits .f32 = 32 ∨ (Rect.block (s := S10000x128) S1000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S10000x128.size a
  hwx3_1 : ∀ i : grid3.Coords, EltTy.bits .f32 = 32 ∨ (Rect.block (s := S10000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x1.size a ≤ S10000x1.size a
  hwx3_5 : ∀ i : grid3.Coords, EltTy.bits .f32 = 32 ∨ (Rect.block (s := S10000x1) S1000x1.size (cc3_transform_5 i) (hinb3_5 i)).WholeWords (EltTy.packing .f32)

variable [Facts₀]

def dot_S1000x16_S16x128_S1000x128_1_0_0_1_n_n : DotDims S1000x16 S16x128 S1000x128 where
  lhsContracting := [1]
  rhsContracting := [0]
  lhsNonContracting := [0]
  rhsNonContracting := [1]
  lhsBatch := []
  rhsBatch := []
  wf := dot_S1000x16_S16x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S1000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_1) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S1000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26_1) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_0) S1000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v44_1) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v44_1) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x16 : Shape := ⟨2, ![10000, 16]⟩
abbrev S2x640000 : Shape := ⟨2, ![2, 640000]⟩
abbrev S16x128 : Shape := ⟨2, ![16, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S10000x128 : Shape := ⟨2, ![10000, 128]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x1 : Shape := ⟨2, ![10000, 1]⟩
abbrev S10000 : Shape := ⟨1, ![10000]⟩

abbrev nBuf : Space → Nat
  | .hbm => 105
  | .vmem => 0
  | .smem => 0
  | _ => 0

abbrev bufTy : (tb : Table) → Fin (tcTables nBuf tb) → BufTy
  | .hbm, ⟨0, _⟩ => ⟨S10000x16, .f32⟩
  | .hbm, ⟨1, _⟩ => ⟨S2x640000, .i32⟩
  | .hbm, ⟨2, _⟩ => ⟨S16x128, .f32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S128x1, .f32⟩
  | .hbm, ⟨7, _⟩ => ⟨S1, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S1x128x128, .f32⟩
  | .hbm, ⟨26, _⟩ => ⟨S128x128, .f32⟩
  | .hbm, ⟨27, _⟩ => ⟨S640000x128, .f32⟩
  | .hbm, ⟨28, _⟩ => ⟨S_, .f32⟩
  | .hbm, ⟨29, _⟩ => ⟨S10000x128, .f32⟩
  | .hbm, ⟨30, _⟩ => ⟨S640000x1, .i32⟩
  | .hbm, ⟨31, _⟩ => ⟨S10000x128, .f32⟩
  | .hbm, ⟨32, _⟩ => ⟨S1x128x128, .f32⟩
  | .hbm, ⟨33, _⟩ => ⟨S128x128, .f32⟩
  | .hbm, ⟨34, _⟩ => ⟨S10000x128, .f32⟩
  | .hbm, ⟨35, _⟩ => ⟨S10000x128, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S1x128x128, .f32⟩
  | .hbm, ⟨54, _⟩ => ⟨S128x128, .f32⟩
  | .hbm, ⟨55, _⟩ => ⟨S640000x128, .f32⟩
  | .hbm, ⟨56, _⟩ => ⟨S_, .f32⟩
  | .hbm, ⟨57, _⟩ => ⟨S10000x128, .f32⟩
  | .hbm, ⟨58, _⟩ => ⟨S640000x1, .i32⟩
  | .hbm, ⟨59, _⟩ => ⟨S10000x128, .f32⟩
  | .hbm, ⟨60, _⟩ => ⟨S1x128x128, .f32⟩
  | .hbm, ⟨61, _⟩ => ⟨S128x128, .f32⟩
  | .hbm, ⟨62, _⟩ => ⟨S10000x128, .f32⟩
  | .hbm, ⟨63, _⟩ => ⟨S10000x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S10000x128, .f32⟩
  | .hbm, ⟨68, _⟩ => ⟨S10000x128, .f32⟩
  | .hbm, ⟨69, _⟩ => ⟨S_, .f32⟩
  | .hbm, ⟨70, _⟩ => ⟨S10000x128, .f32⟩
  | .hbm, ⟨71, _⟩ => ⟨S10000x128, .f32⟩
  | .hbm, ⟨72, _⟩ => ⟨S_, .i32⟩
  | .hbm, ⟨73, _⟩ => ⟨S640000, .i32⟩
  | .hbm, ⟨74, _⟩ => ⟨S640000, .i1⟩
  | .hbm, ⟨75, _⟩ => ⟨S_, .i32⟩
  | .hbm, ⟨76, _⟩ => ⟨S640000, .i32⟩
  | .hbm, ⟨77, _⟩ => ⟨S640000, .i32⟩
  | .hbm, ⟨78, _⟩ => ⟨S640000, .i32⟩
  | .hbm, ⟨79, _⟩ => ⟨S640000x1, .i32⟩
  | .hbm, ⟨80, _⟩ => ⟨S640000x128, .f32⟩
  | .hbm, ⟨81, _⟩ => ⟨S1x128x128, .f32⟩
  | .hbm, ⟨82, _⟩ => ⟨S128x128, .f32⟩
  | .hbm, ⟨83, _⟩ => ⟨S640000x128, .f32⟩
  | .hbm, ⟨84, _⟩ => ⟨S_, .f32⟩
  | .hbm, ⟨85, _⟩ => ⟨S10000x128, .f32⟩
  | .hbm, ⟨86, _⟩ => ⟨S640000x1, .i32⟩
  | .hbm, ⟨87, _⟩ => ⟨S10000x128, .f32⟩
  | .hbm, ⟨88, _⟩ => ⟨S1x128x128, .f32⟩
  | .hbm, ⟨89, _⟩ => ⟨S128x128, .f32⟩
  | .hbm, ⟨90, _⟩ => ⟨S10000x128, .f32⟩
  | .hbm, ⟨91, _⟩ => ⟨S10000x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S10000x128, .f32⟩
  | .hbm, ⟨96, _⟩ => ⟨S10000x128, .f32⟩
  | .hbm, ⟨97, _⟩ => ⟨S_, .f32⟩
  | .hbm, ⟨98, _⟩ => ⟨S10000x128, .f32⟩
  | .hbm, ⟨99, _⟩ => ⟨S10000x128, .f32⟩
  | .hbm, ⟨100, _⟩ => ⟨S10000x1, .f32⟩
  | .hbm, ⟨101, _⟩ => ⟨S10000, .f32⟩
  | .hbm, ⟨102, _⟩ => ⟨S_, .f32⟩
  | .hbm, ⟨103, _⟩ => ⟨S10000, .f32⟩
  | .hbm, ⟨104, _⟩ => ⟨S10000, .f32⟩
  | _, _ => ⟨S10000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_cst : Ref sig .tc := ⟨.hbm, 41, rfl⟩
abbrev main_call1_v0 : Ref sig .tc := ⟨.hbm, 42, rfl⟩
abbrev main_v28 : Ref sig .tc := ⟨.hbm, 43, rfl⟩
abbrev main_c_1 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call2_cst : Ref sig .tc := ⟨.hbm, 69, rfl⟩
abbrev main_call2_v0 : Ref sig .tc := ⟨.hbm, 70, rfl⟩
abbrev main_v51 : Ref sig .tc := ⟨.hbm, 71, rfl⟩
abbrev main_c_4 : Ref sig .tc := ⟨.hbm, 72, rfl⟩
abbrev main_v52 : Ref sig .tc := ⟨.hbm, 73, rfl⟩
abbrev main_v53 : Ref sig .tc := ⟨.hbm, 74, rfl⟩
abbrev main_c_5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call3_cst : Ref sig .tc := ⟨.hbm, 97, rfl⟩
abbrev main_call3_v0 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S10000x1_S10000 : S10000x1.ShapeCasts S10000
  shapeCasts_S1_S_ : S1.ShapeCasts S_
  bcast_S_S10000 : S_.BroadcastsInDim S10000 (![] : Fin 0 → Fin S10000.rank)
  dot_S10000x16_S16x128_S10000x128_1_0_0_1_n_n_wf : DotDims.WF S10000x16 S16x128 S10000x128 [1] [0] [0] [1] [] []
  gather_S10000x128_S640000x1_S640000x128_1_0_n_n_0_1_1128_wf : GatherDims.WF S10000x128 S640000x1 S640000x128 [1] [0] [] [0] [] 1 ![1, 128]
  dot_S640000x128_S128x128_S640000x128_1_0_0_1_n_n_wf : DotDims.WF S640000x128 S128x128 S640000x128 [1] [0] [0] [1] [] []
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.RunResult.lean ====
import proofs.«179397_j16784732192966_1_alg».proof.Proof.Gen.KernelIdeal.Frame

/-!
# The idealized kernel's run, with its result named

Every weakly fair execution of the program from a launch memory `m` terminates without a fault; the result buffer then
holds what the last boundary's contents hold there — the fold of the host operations and of the four regions' write-backs
from `m` — and the eight argument arrays are as launched. This is the run the frame claim rests on, read at one more
buffer: the final state agrees with the last boundary's contents at EVERY buffer that outlives the regions, the result
among them.
-/

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments as launched. -/
theorem run_result : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunResult

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«179397_j16784732192966_1_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.Spec.lean ====
import Idealize.ShloMosaic.PureOps.Ideal
import Idealize.ShloMosaic.PureOps.Ideal.Laws
import Idealize.ShloMosaic.Lib.ValueIdx
import Idealize.ShloMosaic.Lib.Pipeline.Value
import proofs.«179397_j16784732192966_1_alg».proof.Proof.LibMatmulRows

/-!
# The network, layer by layer, over the extended reals

Arrays are functions of their index. With `mmRows` the rows-by-columns product:
* `relu A` is `max (A i) 0` at every index;
* `hidden S A b` is one layer's new node state `relu ((S + A) + b)`: the self term, the aggregated messages, and the
  bias ROW `b : [1, C]` added to every row;
* `logits H w b` is the output column `H · w + b` with `b : [1, 1]` added to every row;
* `rowBlock R t _ A` is rows `R t … R t + R − 1` of `A`.
Every one of them acts row by row, so each commutes with taking a block of rows (`rowBlock_mmRows`, `rowBlock_relu`,
`rowBlock_hidden`, `rowBlock_logits`): a block of rows of a layer's output is that layer applied to the block of rows.
The second half reads what a kernel body computes from whole blocks — format changes are the identity on the extended
reals, a shape cast to the same shape is the identity, a product into the zero accumulator is `mmRows` — as these
functions (`hidden_ops`, `embed_ops`).
-/

noncomputable section

open scoped BigOperators

namespace Cert.Gnn

open Idealize.ShloMosaic Idealize.ShloMosaic.ValueIdx Cert.LibMatmulRows

/-- `max x 0` at every index. -/
def relu {s : Shape} (A : s.Idx → EReal) : s.Idx → EReal := fun i => max (A i) (Ideal.ofBits .f32 0x00000000#32)

/-- One layer's new node state: `relu ((S + A) + b)`, the bias row `b` added to every row. -/
def hidden {N C : Nat} (S A : (⟨2, ![N, C]⟩ : Shape).Idx → EReal) (b : (⟨2, ![1, C]⟩ : Shape).Idx → EReal) :
    (⟨2, ![N, C]⟩ : Shape).Idx → EReal :=
  relu fun i => (S i + A i) + b (ix2 (n0 := 1) (n1 := C) 0 (i 1))

/-- The output column: `H · w + b`, the one bias entry added to every row. -/
def logits {N C : Nat} (H : (⟨2, ![N, C]⟩ : Shape).Idx → EReal) (w : (⟨2, ![C, 1]⟩ : Shape).Idx → EReal)
    (b : (⟨2, ![1, 1]⟩ : Shape).Idx → EReal) : (⟨2, ![N, 1]⟩ : Shape).Idx → EReal :=
  fun i => mmRows H w i + b (ix2 (n0 := 1) (n1 := 1) 0 0)

/-- Rows `R t … R t + R − 1` of `A`. -/
def rowBlock {N C : Nat} (R t : Nat) (ht : R * t + R ≤ N) (A : (⟨2, ![N, C]⟩ : Shape).Idx → EReal) :
    (⟨2, ![R, C]⟩ : Shape).Idx → EReal :=
  fun y => A (ix2 (n0 := N) (n1 := C) ⟨R * t + (y 0).val, by have := idx2_lt0 y; omega⟩ (y 1))

section RowBlock
variable {N C K : Nat} (R t : Nat) (ht : R * t + R ≤ N)

/-- A block of rows of a product is the block of rows of the left factor times the right factor. -/
theorem rowBlock_mmRows (A : (⟨2, ![N, K]⟩ : Shape).Idx → EReal) (B : (⟨2, ![K, C]⟩ : Shape).Idx → EReal) :
    rowBlock R t ht (mmRows A B) = mmRows (rowBlock R t ht A) B := rfl

theorem rowBlock_relu (A : (⟨2, ![N, C]⟩ : Shape).Idx → EReal) :
    rowBlock R t ht (relu A) = relu (rowBlock R t ht A) := rfl

theorem rowBlock_hidden (S A : (⟨2, ![N, C]⟩ : Shape).Idx → EReal) (b : (⟨2, ![1, C]⟩ : Shape).Idx → EReal) :
    rowBlock R t ht (hidden S A b) = hidden (rowBlock R t ht S) (rowBlock R t ht A) b := rfl

theorem rowBlock_logits (H : (⟨2, ![N, C]⟩ : Shape).Idx → EReal) (w : (⟨2, ![C, 1]⟩ : Shape).Idx → EReal)
    (b : (⟨2, ![1, 1]⟩ : Shape).Idx → EReal) :
    rowBlock R t ht (logits H w b) = logits (rowBlock R t ht H) w b := rfl

end RowBlock

/-! ## What the kernel bodies compute from whole blocks -/

/-- A row `[1, C]` broadcast to `[R, C]` reads the row at the column. -/
theorem broadcastTo_row {α : Type} {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 (n0 := 1) (n1 := C) 0 c) := by
  refine broadcastTo_apply x h _ _ fun a => ?_
  match a with
  | ⟨0, _⟩ => exact (if_pos rfl).symm
  | ⟨1, _⟩ =>
    show c.val = if C = 1 then 0 else c.val
    split
    · have := c.isLt; omega
    · rfl

section Bodies
variable {R C : Nat}

/-- The body's `relu ((x0 + x1) + row)` on whole blocks, rounded on its way into the product, is `hidden`. -/
theorem hidden_ops (x0 x1 : (⟨2, ![R, C]⟩ : Shape).Idx → EReal) (x2 : (⟨2, ![1, C]⟩ : Shape).Idx → EReal)
    (h0 : (⟨2, ![R, C]⟩ : Shape).ShapeCasts ⟨2, ![R, C]⟩) (h2 : (⟨2, ![1, C]⟩ : Shape).ShapeCasts ⟨2, ![1, C]⟩)
    (hb : (⟨2, ![1, C]⟩ : Shape).Broadcasts ⟨2, ![R, C]⟩) (hbits : FTy.bf16.bits < FTy.f32.bits) :
    truncf (F := Ideal) .bf16
        (maximumf (F := Ideal) (φ := .f32)
          (addf (F := Ideal) (φ := .f32)
            (addf (F := Ideal) (φ := .f32) (shapeCast ⟨2, ![R, C]⟩ x0 h0) (shapeCast ⟨2, ![R, C]⟩ x1 h0))
            (broadcastTo ⟨2, ![R, C]⟩ (shapeCast ⟨2, ![1, C]⟩ x2 h2) hb))
          (broadcast ⟨2, ![R, C]⟩ (Scalar.ofBits (F := Ideal) .f32 0x00000000#32))) hbits
      = hidden x0 x1 x2 := by
  rw [shapeCast_self, shapeCast_self, shapeCast_self]
  funext i
  obtain ⟨r, c, rfl⟩ : ∃ (r : Fin R) (c : Fin C), i = ix2 r c := ⟨i 0, i 1, eq_ix2 i⟩
  show max ((x0 (ix2 r c) + x1 (ix2 r c)) + broadcastTo ⟨2, ![R, C]⟩ x2 hb (ix2 r c)) _ = _
  rw [broadcastTo_row]
  rfl

/-- The body's last step on whole blocks: the product with the one output column into the zero accumulator, plus the
    one bias entry broadcast to every row, is `logits`. -/
theorem logits_ops {φ : FTy} (wf : DotDims.WF ⟨2, ![R, C]⟩ ⟨2, ![C, 1]⟩ ⟨2, ![R, 1]⟩ [1] [0] [0] [1] [] [])
    (H : FVec Ideal ⟨2, ![R, C]⟩ φ) (w : (⟨2, ![C, 1]⟩ : Shape).Idx → EReal) (b : (⟨2, ![1, 1]⟩ : Shape).Idx → EReal)
    (h1 : (⟨2, ![1, 1]⟩ : Shape).ShapeCasts ⟨2, ![1, 1]⟩) (hb : (⟨2, ![1, 1]⟩ : Shape).Broadcasts ⟨2, ![R, 1]⟩)
    (hbits : FTy.bf16.bits < FTy.f32.bits) :
    addf (F := Ideal) (φ := .f32)
        (FloatOps.matmul (F := Ideal) (dotRows R C 1 wf) none H (truncf (F := Ideal) (φ := .f32) .bf16 w hbits)
          (constant (F := Ideal) ⟨2, ![R, 1]⟩ .f32 0x00000000#32))
        (broadcastTo ⟨2, ![R, 1]⟩ (shapeCast ⟨2, ![1, 1]⟩ b h1) hb)
      = logits H w b := by
  rw [shapeCast_self]
  funext i
  obtain ⟨r, c, rfl⟩ : ∃ (r : Fin R) (c : Fin 1), i = ix2 r c := ⟨i 0, i 1, eq_ix2 i⟩
  obtain rfl : c = 0 := Subsingleton.elim _ _
  show FloatOps.matmul (F := Ideal) (dotRows R C 1 wf) none H w (constant (F := Ideal) ⟨2, ![R, 1]⟩ .f32 0x00000000#32) (ix2 r 0)
      + broadcastTo ⟨2, ![R, 1]⟩ b hb (ix2 r 0) = _
  rw [broadcastTo_row, matmulRows_eq wf none H w]
  rfl

end Bodies

end Cert.Gnn

end
-- ==== Proof.Region0.lean ====
import proofs.«179397_j16784732192966_1_alg».proof.Proof.Gen.KernelIdeal.Frame
import proofs.«179397_j16784732192966_1_alg».proof.Proof.Spec

/-!
# Region 0: the input embedding, from blocks of rows to whole arrays

The grid has ten points; point `t` reads rows `1000 t … 1000 t + 999` of the node features, the whole embedding matrix
and the two whole first-layer weight matrices, and writes rows `1000 t … 1000 t + 999` of its two results: the first
node state `relu (x · W_in)` times the neighbour weights, and times the self weights. A product and `relu` act row by
row, so what point `t` writes is that block of rows of ONE function of the whole input arrays; the ten blocks of rows
tile the array, so after the region each result array IS that function of the arrays the region was entered with.
-/

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.Gnn Cert.LibMatmulRows

variable (V : (c : Dev nD) → (b : Ref sig .tc) → Buf (Elt Ideal) ((c : Thread nD τ).loc b))

theorem hz : (![0, 0] : Fin 2 → Nat) = fun _ => 0 := funext fun a => by fin_cases a <;> rfl

/-- Ten points: a block of a thousand rows at each lies inside the ten thousand rows. -/
theorem rows_le (t : Fin cfg0.N) : 1000 * t.val + 1000 ≤ 10000 := by
  have h := t.isLt; have hN : cfg0.N = 10 := N_0; omega

/-! ## The body on whole blocks -/

/-- A weight block on its way into the product: a shape cast to its own shape and a change of format. -/
theorem weight_ops (x : Vec Ideal S128x128 .f32) :
    truncf (F := Ideal) .bf16 (shapeCast S128x128 x Facts₀.shapeCasts_S128x128_S128x128) Facts₀.bitsLt_bf16_f32 = x := by
  rw [shapeCast_self]; rfl

/-- The first node state of the point's rows: `relu` of the rows' features times the embedding matrix (the changes
    of format on the way into and out of the product are the identity). -/
theorem pay1_eq (x0 : Vec Ideal S1000x16 .f32) (x1 : Vec Ideal S16x128 .f32) :
    k0_pay1 (F := Ideal) x0 x1 = relu (mmRows x0 x1) :=
  congrArg (fun a : S1000x128.Idx → EReal => relu a)
    (matmulRows_eq Facts₀.dot_S1000x16_S16x128_S1000x128_1_0_0_1_n_n_wf none x0 x1)

/-- What the body stores in the first result block. -/
theorem pay2_eq (x0 : Vec Ideal S1000x16 .f32) (x1 : Vec Ideal S16x128 .f32) (x2 : Vec Ideal S128x128 .f32) :
    k0_pay2 (F := Ideal) x0 x1 x2 = mmRows (relu (mmRows x0 x1)) x2 :=
  (congrArg₂ (fun a b => FloatOps.matmul (F := Ideal) dot_S1000x128_S128x128_S1000x128_1_0_0_1_n_n none a b
        (constant S1000x128 .f32 0x00000000#32)) (pay1_eq x0 x1) (weight_ops x2)).trans
    (matmulRows_eq Facts₀.dot_S1000x128_S128x128_S1000x128_1_0_0_1_n_n_wf none _ _)

/-- What the body stores in the second result block. -/
theorem pay3_eq (x0 : Vec Ideal S1000x16 .f32) (x1 : Vec Ideal S16x128 .f32) (x3 : Vec Ideal S128x128 .f32) :
    k0_pay3 (F := Ideal) x0 x1 x3 = mmRows (relu (mmRows x0 x1)) x3 :=
  (congrArg₂ (fun a b => FloatOps.matmul (F := Ideal) dot_S1000x128_S128x128_S1000x128_1_0_0_1_n_n none a b
        (constant S1000x128 .f32 0x00000000#32)) (pay1_eq x0 x1) (weight_ops x3)).trans
    (matmulRows_eq Facts₀.dot_S1000x128_S128x128_S1000x128_1_0_0_1_n_n_wf none _ _)

/-! ## The windows' blocks -/

/-- The printed index maps over the grid: the row-blocked windows are at block `(t, 0)`, the others at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The features' block at point `t` is its rows `1000 t …`. -/
theorem iblk_0 (c : Dev nD) (t : Fin cfg0.N) :
    (iblk0 V c 0 t : Vec Ideal S1000x16 .f32) = rowBlock 1000 t.val (rows_le t) (V c main_arg0) := by
  obtain ⟨e0, e1, -⟩ := idx_facts t
  funext y
  show V c main_arg0 (((cfg0.win 0).blk t).view.emb y) = V c main_arg0 (ix2 ⟨1000 * t.val + (y 0).val, _⟩ (y 1))
  refine congrArg (V c main_arg0) (funext fun a => Fin.ext ?_)
  match a with
  | ⟨0, _⟩ => show win0_0.index t (0 : Fin 2) * 1000 + 1 * (y 0).val = 1000 * t.val + (y 0).val; rw [e0]; omega
  | ⟨1, _⟩ => show win0_0.index t (1 : Fin 2) * 16 + 1 * (y 1).val = (y 1).val; rw [e1]; omega

/-- The embedding matrix's block is the whole matrix at every point. -/
theorem iblk_1 (c : Dev nD) (t : Fin cfg0.N) : (iblk0 V c 1 t : Vec Ideal S16x128 .f32) = V c main_arg2 := by
  obtain ⟨-, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 16 + 1 * (y 0).val = (y 0).val; rw [e0]; omega
  | ⟨1, _⟩ => show win0_1.index t (1 : Fin 2) * 128 + 1 * (y 1).val = (y 1).val; rw [e1]; omega

/-- The neighbour weights' block is the whole matrix at every point. -/
theorem iblk_2 (c : Dev nD) (t : Fin cfg0.N) : (iblk0 V c 2 t : Vec Ideal S128x128 .f32) = V c main_v5 := by
  obtain ⟨-, -, -, -, e0, e1, -⟩ := idx_facts t
  funext y
  show V c main_v5 (((cfg0.win 2).blk t).view.emb y) = V c main_v5 y
  refine congrArg (V c main_v5) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The self weights' block is the whole matrix at every point. -/
theorem iblk_3 (c : Dev nD) (t : Fin cfg0.N) : (iblk0 V c 3 t : Vec Ideal S128x128 .f32) = V c main_v7 := by
  obtain ⟨-, -, -, -, -, -, e0, e1, -⟩ := idx_facts t
  funext y
  show V c main_v7 (((cfg0.win 3).blk t).view.emb y) = V c main_v7 y
  refine congrArg (V c main_v7) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Either result's block at point `t`, read off an array `G`, is rows `1000 t …` of `G`. -/
theorem read_rows4 (G : S10000x128.Idx → EReal) (t : Fin cfg0.N) :
    ((cfg0.win 4).blk t).view.read (Elt Ideal) G = rowBlock 1000 t.val (rows_le t) G := by
  obtain ⟨-, -, -, -, -, -, -, -, e0, e1, -⟩ := idx_facts t
  funext y
  show G (((cfg0.win 4).blk t).view.emb y) = G (ix2 ⟨1000 * t.val + (y 0).val, _⟩ (y 1))
  refine congrArg G (funext fun a => Fin.ext ?_)
  match a with
  | ⟨0, _⟩ => show win0_4.index t (0 : Fin 2) * 1000 + 1 * (y 0).val = 1000 * t.val + (y 0).val; rw [e0]; omega
  | ⟨1, _⟩ => show win0_4.index t (1 : Fin 2) * 128 + 1 * (y 1).val = (y 1).val; rw [e1]; omega

theorem read_rows5 (G : S10000x128.Idx → EReal) (t : Fin cfg0.N) :
    ((cfg0.win 5).blk t).view.read (Elt Ideal) G = rowBlock 1000 t.val (rows_le t) G := by
  obtain ⟨-, -, -, -, -, -, -, -, -, -, e0, e1⟩ := idx_facts t
  funext y
  show G (((cfg0.win 5).blk t).view.emb y) = G (ix2 ⟨1000 * t.val + (y 0).val, _⟩ (y 1))
  refine congrArg G (funext fun a => Fin.ext ?_)
  match a with
  | ⟨0, _⟩ => show win0_5.index t (0 : Fin 2) * 1000 + 1 * (y 0).val = 1000 * t.val + (y 0).val; rw [e0]; omega
  | ⟨1, _⟩ => show win0_5.index t (1 : Fin 2) * 128 + 1 * (y 1).val = (y 1).val; rw [e1]; omega

/-! ## The two results as functions of the region's input arrays -/

/-- The first node state of the arrays the region is entered with. -/
abbrev state (c : Dev nD) : S10000x128.Idx → EReal := relu (mmRows (V c main_arg0) (V c main_arg2))

/-- WHAT POINT `t` WRITES BACK to the first result is rows `1000 t …` of the first node state times the neighbour weights. -/
theorem flushed4_eq (c : Dev nD) (t : Fin cfg0.N) :
    (dat0 (F := Ideal) V c).flushed 4 t
      = ((cfg0.win 4).blk t).view.read (Elt Ideal) (mmRows (state V c) (V c main_v5)) := by
  show (cfg0.win 4).cut (grid0.coords t) ((dat0 (F := Ideal) V c).after 4 t) = _
  rw [after0_4, read_rows4, rowBlock_mmRows, rowBlock_relu, rowBlock_mmRows]
  unfold out0_4
  rw [View.canon_unit_zero hz]
  simp only [View.ld_unit_zero (S := S1000x16) hz, View.ld_unit_zero (S := S16x128) hz, View.ld_unit_zero (S := S128x128) hz]
  rw [pay2_eq, iblk_0, iblk_1, iblk_2]
  rfl

/-- WHAT POINT `t` WRITES BACK to the second result is rows `1000 t …` of the first node state times the self weights. -/
theorem flushed5_eq (c : Dev nD) (t : Fin cfg0.N) :
    (dat0 (F := Ideal) V c).flushed 5 t
      = ((cfg0.win 5).blk t).view.read (Elt Ideal) (mmRows (state V c) (V c main_v7)) := by
  show (cfg0.win 5).cut (grid0.coords t) ((dat0 (F := Ideal) V c).after 5 t) = _
  rw [after0_5, read_rows5, rowBlock_mmRows, rowBlock_relu, rowBlock_mmRows]
  unfold out0_5
  rw [View.canon_unit_zero hz]
  simp only [View.ld_unit_zero (S := S1000x16) hz, View.ld_unit_zero (S := S16x128) hz, View.ld_unit_zero (S := S128x128) hz]
  rw [pay3_eq, iblk_0, iblk_1, iblk_3]
  rfl

/-- An index of a result array is in point `t`'s block iff each coordinate is in the block's range on its axis. -/
theorem mem_blk4 (t : Fin cfg0.N) (i : S10000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v8_0).slice (win0_4.rect t)).set ↔ _
  rw [View.set_slice_whole, Rect.mem_set_unit]
  exact Iff.rfl

theorem mem_blk5 (t : Fin cfg0.N) (i : S10000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v8_1).slice (win0_5.rect t)).set ↔ _
  rw [View.set_slice_whole, Rect.mem_set_unit]
  exact Iff.rfl

/-- Row `r` is in the block of point `r / 1000`: the ten blocks of rows tile the array. -/
theorem cover4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  refine ⟨⟨(i 0).val / 1000, by rw [show cfg0.N = 10 from N_0]; omega⟩, flush0_4 _, ?_⟩
  rw [mem_blk4]
  obtain ⟨-, -, -, -, -, -, -, -, e0, e1, -⟩ := idx_facts ⟨(i 0).val / 1000, by rw [show cfg0.N = 10 from N_0]; omega⟩
  intro a
  match a with
  | ⟨0, _⟩ =>
    show win0_4.index _ (0 : Fin 2) * 1000 ≤ (i 0).val ∧ (i 0).val < win0_4.index _ (0 : Fin 2) * 1000 + 1000
    rw [e0]; show (i 0).val / 1000 * 1000 ≤ (i 0).val ∧ (i 0).val < (i 0).val / 1000 * 1000 + 1000; omega
  | ⟨1, _⟩ =>
    show win0_4.index _ (1 : Fin 2) * 128 ≤ (i 1).val ∧ (i 1).val < win0_4.index _ (1 : Fin 2) * 128 + 128
    rw [e1]; omega

theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  refine ⟨⟨(i 0).val / 1000, by rw [show cfg0.N = 10 from N_0]; omega⟩, flush0_5 _, ?_⟩
  rw [mem_blk5]
  obtain ⟨-, -, -, -, -, -, -, -, -, -, e0, e1⟩ := idx_facts ⟨(i 0).val / 1000, by rw [show cfg0.N = 10 from N_0]; omega⟩
  intro a
  match a with
  | ⟨0, _⟩ =>
    show win0_5.index _ (0 : Fin 2) * 1000 ≤ (i 0).val ∧ (i 0).val < win0_5.index _ (0 : Fin 2) * 1000 + 1000
    rw [e0]; show (i 0).val / 1000 * 1000 ≤ (i 0).val ∧ (i 0).val < (i 0).val / 1000 * 1000 + 1000; omega
  | ⟨1, _⟩ =>
    show win0_5.index _ (1 : Fin 2) * 128 ≤ (i 1).val ∧ (i 1).val < win0_5.index _ (1 : Fin 2) * 128 + 128
    rw [e1]; omega

/-- AFTER THE REGION the first result array is the first node state times the neighbour weights. -/
theorem final4 (c : Dev nD) : (dat0 (F := Ideal) V c).arrAt 4 cfg0.N = mmRows (state V c) (V c main_v5) :=
  (dat0 (F := Ideal) V c).arrAt_eq_of_cover 4 _ (fun t _ => flushed4_eq V c t) cover4

/-- AFTER THE REGION the second result array is the first node state times the self weights. -/
theorem final5 (c : Dev nD) : (dat0 (F := Ideal) V c).arrAt 5 cfg0.N = mmRows (state V c) (V c main_v7) :=
  (dat0 (F := Ideal) V c).arrAt_eq_of_cover 5 _ (fun t _ => flushed5_eq V c t) cover5

end Cert.KernelIdeal.Region0

end
-- ==== Proof.Region1.lean ====
import proofs.«179397_j16784732192966_1_alg».proof.Proof.Gen.KernelIdeal.Frame
import proofs.«179397_j16784732192966_1_alg».proof.Proof.Spec

/-!
# Region 1: a combine layer, from blocks of rows to whole arrays

The grid has ten points; point `t` reads rows `1000 t … 1000 t + 999` of the self term and of the aggregated
messages, the whole bias row and the two whole weight matrices, and writes rows `1000 t … 1000 t + 999` of its two
results: the new node state `relu ((self + agg) + bias)` times the neighbour weights, and times the self weights. Since
the new node state and a product act row by row, what point `t` writes is that block of rows of ONE function of the
whole input arrays; the ten blocks of rows tile the array, so after the region each result array IS that function of the
arrays the region was entered with, whatever they were.
-/

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.Gnn Cert.LibMatmulRows

variable (V : (c : Dev nD) → (b : Ref sig .tc) → Buf (Elt Ideal) ((c : Thread nD τ).loc b))

theorem hz : (![0, 0] : Fin 2 → Nat) = fun _ => 0 := funext fun a => by fin_cases a <;> rfl

/-- Ten points: a block of a thousand rows at each lies inside the ten thousand rows. -/
theorem rows_le (t : Fin cfg1.N) : 1000 * t.val + 1000 ≤ 10000 := by
  have h := t.isLt; have hN : cfg1.N = 10 := N_1; omega

/-! ## The body on whole blocks -/

/-- A weight block on its way into the product: a shape cast to its own shape and a change of format. -/
theorem weight_ops (x : Vec Ideal S128x128 .f32) :
    truncf (F := Ideal) .bf16 (shapeCast S128x128 x Facts₀.shapeCasts_S128x128_S128x128) Facts₀.bitsLt_bf16_f32 = x := by
  rw [shapeCast_self]; rfl

/-- What the body stores in either result block: the new node state of the point's rows times the weight block. -/
theorem pay2_eq (x0 x1 : Vec Ideal S1000x128 .f32) (x2 : Vec Ideal S1x128 .f32) (x3 : Vec Ideal S128x128 .f32) :
    k1_pay2 (F := Ideal) x0 x1 x2 x3 = mmRows (hidden x0 x1 x2) x3 :=
  (congrArg₂ (fun a b => FloatOps.matmul (F := Ideal) dot_S1000x128_S128x128_S1000x128_1_0_0_1_n_n none a b
        (constant S1000x128 .f32 0x00000000#32))
      (hidden_ops x0 x1 x2 Facts₀.shapeCasts_S1000x128_S1000x128 Facts₀.shapeCasts_S1x128_S1x128 Facts₀.broadcasts_S1x128_S1000x128 Facts₀.bitsLt_bf16_f32)
      (weight_ops x3)).trans
    (matmulRows_eq Facts₀.dot_S1000x128_S128x128_S1000x128_1_0_0_1_n_n_wf none _ _)

theorem pay3_eq (x0 x1 : Vec Ideal S1000x128 .f32) (x2 : Vec Ideal S1x128 .f32) (x4 : Vec Ideal S128x128 .f32) :
    k1_pay3 (F := Ideal) x0 x1 x2 x4 = mmRows (hidden x0 x1 x2) x4 :=
  (congrArg₂ (fun a b => FloatOps.matmul (F := Ideal) dot_S1000x128_S128x128_S1000x128_1_0_0_1_n_n none a b
        (constant S1000x128 .f32 0x00000000#32))
      (hidden_ops x0 x1 x2 Facts₀.shapeCasts_S1000x128_S1000x128 Facts₀.shapeCasts_S1x128_S1x128 Facts₀.broadcasts_S1x128_S1000x128 Facts₀.bitsLt_bf16_f32)
      (weight_ops x4)).trans
    (matmulRows_eq Facts₀.dot_S1000x128_S128x128_S1000x128_1_0_0_1_n_n_wf none _ _)

/-! ## The windows' blocks -/

/-- The printed index maps over the grid: the row-blocked windows are at block `(t, 0)`, the others at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The self term's block at point `t` is its rows `1000 t …`. -/
theorem iblk_0 (c : Dev nD) (t : Fin cfg1.N) :
    (iblk1 V c 0 t : Vec Ideal S1000x128 .f32) = rowBlock 1000 t.val (rows_le t) (V c main_v8_1) := by
  obtain ⟨e0, e1, -⟩ := idx_facts t
  funext y
  show V c main_v8_1 (((cfg1.win 0).blk t).view.emb y) = V c main_v8_1 (ix2 ⟨1000 * t.val + (y 0).val, _⟩ (y 1))
  refine congrArg (V c main_v8_1) (funext fun a => Fin.ext ?_)
  match a with
  | ⟨0, _⟩ => show win1_0.index t (0 : Fin 2) * 1000 + 1 * (y 0).val = 1000 * t.val + (y 0).val; rw [e0]; omega
  | ⟨1, _⟩ => show win1_0.index t (1 : Fin 2) * 128 + 1 * (y 1).val = (y 1).val; rw [e1]; omega

/-- The aggregated messages' block at point `t` is its rows `1000 t …`. -/
theorem iblk_1 (c : Dev nD) (t : Fin cfg1.N) :
    (iblk1 V c 1 t : Vec Ideal S1000x128 .f32) = rowBlock 1000 t.val (rows_le t) (V c main_v18) := by
  obtain ⟨-, -, e0, e1, -⟩ := idx_facts t
  funext y
  show V c main_v18 (((cfg1.win 1).blk t).view.emb y) = V c main_v18 (ix2 ⟨1000 * t.val + (y 0).val, _⟩ (y 1))
  refine congrArg (V c main_v18) (funext fun a => Fin.ext ?_)
  match a with
  | ⟨0, _⟩ => show win1_1.index t (0 : Fin 2) * 1000 + 1 * (y 0).val = 1000 * t.val + (y 0).val; rw [e0]; omega
  | ⟨1, _⟩ => show win1_1.index t (1 : Fin 2) * 128 + 1 * (y 1).val = (y 1).val; rw [e1]; omega

/-- The bias row's block is the whole row at every point. -/
theorem iblk_2 (c : Dev nD) (t : Fin cfg1.N) : (iblk1 V c 2 t : Vec Ideal S1x128 .f32) = V c main_v21 := by
  obtain ⟨-, -, -, -, e0, e1, -⟩ := idx_facts t
  funext y
  show V c main_v21 (((cfg1.win 2).blk t).view.emb y) = V c main_v21 y
  refine congrArg (V c main_v21) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The neighbour weights' block is the whole matrix at every point. -/
theorem iblk_3 (c : Dev nD) (t : Fin cfg1.N) : (iblk1 V c 3 t : Vec Ideal S128x128 .f32) = V c main_v23 := by
  obtain ⟨-, -, -, -, -, -, e0, e1, -⟩ := idx_facts t
  funext y
  show V c main_v23 (((cfg1.win 3).blk t).view.emb y) = V c main_v23 y
  refine congrArg (V c main_v23) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The self weights' block is the whole matrix at every point. -/
theorem iblk_4 (c : Dev nD) (t : Fin cfg1.N) : (iblk1 V c 4 t : Vec Ideal S128x128 .f32) = V c main_v25 := by
  obtain ⟨-, -, -, -, -, -, -, -, e0, e1, -⟩ := idx_facts t
  funext y
  show V c main_v25 (((cfg1.win 4).blk t).view.emb y) = V c main_v25 y
  refine congrArg (V c main_v25) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Either result's block at point `t`, read off an array `G`, is rows `1000 t …` of `G`. -/
theorem read_rows5 (G : S10000x128.Idx → EReal) (t : Fin cfg1.N) :
    ((cfg1.win 5).blk t).view.read (Elt Ideal) G = rowBlock 1000 t.val (rows_le t) G := by
  obtain ⟨-, -, -, -, -, -, -, -, -, -, e0, e1, -⟩ := idx_facts t
  funext y
  show G (((cfg1.win 5).blk t).view.emb y) = G (ix2 ⟨1000 * t.val + (y 0).val, _⟩ (y 1))
  refine congrArg G (funext fun a => Fin.ext ?_)
  match a with
  | ⟨0, _⟩ => show win1_5.index t (0 : Fin 2) * 1000 + 1 * (y 0).val = 1000 * t.val + (y 0).val; rw [e0]; omega
  | ⟨1, _⟩ => show win1_5.index t (1 : Fin 2) * 128 + 1 * (y 1).val = (y 1).val; rw [e1]; omega

theorem read_rows6 (G : S10000x128.Idx → EReal) (t : Fin cfg1.N) :
    ((cfg1.win 6).blk t).view.read (Elt Ideal) G = rowBlock 1000 t.val (rows_le t) G := by
  obtain ⟨-, -, -, -, -, -, -, -, -, -, -, -, e0, e1⟩ := idx_facts t
  funext y
  show G (((cfg1.win 6).blk t).view.emb y) = G (ix2 ⟨1000 * t.val + (y 0).val, _⟩ (y 1))
  refine congrArg G (funext fun a => Fin.ext ?_)
  match a with
  | ⟨0, _⟩ => show win1_6.index t (0 : Fin 2) * 1000 + 1 * (y 0).val = 1000 * t.val + (y 0).val; rw [e0]; omega
  | ⟨1, _⟩ => show win1_6.index t (1 : Fin 2) * 128 + 1 * (y 1).val = (y 1).val; rw [e1]; omega

/-! ## The two results as functions of the region's input arrays -/

/-- The new node state of the arrays the region is entered with. -/
abbrev state (c : Dev nD) : S10000x128.Idx → EReal := hidden (V c main_v8_1) (V c main_v18) (V c main_v21)

/-- WHAT POINT `t` WRITES BACK to the first result is rows `1000 t …` of the new node state times the neighbour weights. -/
theorem flushed5_eq (c : Dev nD) (t : Fin cfg1.N) :
    (dat1 (F := Ideal) V c).flushed 5 t
      = ((cfg1.win 5).blk t).view.read (Elt Ideal) (mmRows (state V c) (V c main_v23)) := by
  show (cfg1.win 5).cut (grid1.coords t) ((dat1 (F := Ideal) V c).after 5 t) = _
  rw [after1_5, read_rows5, rowBlock_mmRows, rowBlock_hidden]
  unfold out1_5
  rw [View.canon_unit_zero hz]
  simp only [View.ld_unit_zero (S := S1000x128) hz, View.ld_unit_zero (S := S1x128) hz, View.ld_unit_zero (S := S128x128) hz]
  rw [pay2_eq, iblk_0, iblk_1, iblk_2, iblk_3]
  rfl

/-- WHAT POINT `t` WRITES BACK to the second result is rows `1000 t …` of the new node state times the self weights. -/
theorem flushed6_eq (c : Dev nD) (t : Fin cfg1.N) :
    (dat1 (F := Ideal) V c).flushed 6 t
      = ((cfg1.win 6).blk t).view.read (Elt Ideal) (mmRows (state V c) (V c main_v25)) := by
  show (cfg1.win 6).cut (grid1.coords t) ((dat1 (F := Ideal) V c).after 6 t) = _
  rw [after1_6, read_rows6, rowBlock_mmRows, rowBlock_hidden]
  unfold out1_6
  rw [View.canon_unit_zero hz]
  simp only [View.ld_unit_zero (S := S1000x128) hz, View.ld_unit_zero (S := S1x128) hz, View.ld_unit_zero (S := S128x128) hz]
  rw [pay3_eq, iblk_0, iblk_1, iblk_2, iblk_4]
  rfl

/-- An index of a result array is in point `t`'s block iff each coordinate is in the block's range on its axis. -/
theorem mem_blk5 (t : Fin cfg1.N) (i : S10000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v26_0).slice (win1_5.rect t)).set ↔ _
  rw [View.set_slice_whole, Rect.mem_set_unit]
  exact Iff.rfl

theorem mem_blk6 (t : Fin cfg1.N) (i : S10000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v26_1).slice (win1_6.rect t)).set ↔ _
  rw [View.set_slice_whole, Rect.mem_set_unit]
  exact Iff.rfl

/-- Row `r` is in the block of point `r / 1000`: the ten blocks of rows tile the array. -/
theorem cover5 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  refine ⟨⟨(i 0).val / 1000, by rw [show cfg1.N = 10 from N_1]; omega⟩, flush1_5 _, ?_⟩
  rw [mem_blk5]
  obtain ⟨-, -, -, -, -, -, -, -, -, -, e0, e1, -⟩ := idx_facts ⟨(i 0).val / 1000, by rw [show cfg1.N = 10 from N_1]; omega⟩
  intro a
  match a with
  | ⟨0, _⟩ =>
    show win1_5.index _ (0 : Fin 2) * 1000 ≤ (i 0).val ∧ (i 0).val < win1_5.index _ (0 : Fin 2) * 1000 + 1000
    rw [e0]; show (i 0).val / 1000 * 1000 ≤ (i 0).val ∧ (i 0).val < (i 0).val / 1000 * 1000 + 1000; omega
  | ⟨1, _⟩ =>
    show win1_5.index _ (1 : Fin 2) * 128 ≤ (i 1).val ∧ (i 1).val < win1_5.index _ (1 : Fin 2) * 128 + 128
    rw [e1]; omega

theorem cover6 (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  refine ⟨⟨(i 0).val / 1000, by rw [show cfg1.N = 10 from N_1]; omega⟩, flush1_6 _, ?_⟩
  rw [mem_blk6]
  obtain ⟨-, -, -, -, -, -, -, -, -, -, -, -, e0, e1⟩ := idx_facts ⟨(i 0).val / 1000, by rw [show cfg1.N = 10 from N_1]; omega⟩
  intro a
  match a with
  | ⟨0, _⟩ =>
    show win1_6.index _ (0 : Fin 2) * 1000 ≤ (i 0).val ∧ (i 0).val < win1_6.index _ (0 : Fin 2) * 1000 + 1000
    rw [e0]; show (i 0).val / 1000 * 1000 ≤ (i 0).val ∧ (i 0).val < (i 0).val / 1000 * 1000 + 1000; omega
  | ⟨1, _⟩ =>
    show win1_6.index _ (1 : Fin 2) * 128 ≤ (i 1).val ∧ (i 1).val < win1_6.index _ (1 : Fin 2) * 128 + 128
    rw [e1]; omega

/-- AFTER THE REGION the first result array is the new node state times the neighbour weights. -/
theorem final5 (c : Dev nD) : (dat1 (F := Ideal) V c).arrAt 5 cfg1.N = mmRows (state V c) (V c main_v23) :=
  (dat1 (F := Ideal) V c).arrAt_eq_of_cover 5 _ (fun t _ => flushed5_eq V c t) cover5

/-- AFTER THE REGION the second result array is the new node state times the self weights. -/
theorem final6 (c : Dev nD) : (dat1 (F := Ideal) V c).arrAt 6 cfg1.N = mmRows (state V c) (V c main_v25) :=
  (dat1 (F := Ideal) V c).arrAt_eq_of_cover 6 _ (fun t _ => flushed6_eq V c t) cover6

end Cert.KernelIdeal.Region1

end
-- ==== Proof.Region2.lean ====
import proofs.«179397_j16784732192966_1_alg».proof.Proof.Gen.KernelIdeal.Frame
import proofs.«179397_j16784732192966_1_alg».proof.Proof.Spec

/-!
# Region 2: a combine layer, from blocks of rows to whole arrays

The grid has ten points; point `t` reads rows `1000 t … 1000 t + 999` of the self term and of the aggregated
messages, the whole bias row and the two whole weight matrices, and writes rows `1000 t … 1000 t + 999` of its two
results: the new node state `relu ((self + agg) + bias)` times the neighbour weights, and times the self weights. Since
the new node state and a product act row by row, what point `t` writes is that block of rows of ONE function of the
whole input arrays; the ten blocks of rows tile the array, so after the region each result array IS that function of the
arrays the region was entered with, whatever they were.
-/

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open Cert.Gnn Cert.LibMatmulRows

variable (V : (c : Dev nD) → (b : Ref sig .tc) → Buf (Elt Ideal) ((c : Thread nD τ).loc b))

theorem hz : (![0, 0] : Fin 2 → Nat) = fun _ => 0 := funext fun a => by fin_cases a <;> rfl

/-- Ten points: a block of a thousand rows at each lies inside the ten thousand rows. -/
theorem rows_le (t : Fin cfg2.N) : 1000 * t.val + 1000 ≤ 10000 := by
  have h := t.isLt; have hN : cfg2.N = 10 := N_2; omega

/-! ## The body on whole blocks -/

/-- A weight block on its way into the product: a shape cast to its own shape and a change of format. -/
theorem weight_ops (x : Vec Ideal S128x128 .f32) :
    truncf (F := Ideal) .bf16 (shapeCast S128x128 x Facts₀.shapeCasts_S128x128_S128x128) Facts₀.bitsLt_bf16_f32 = x := by
  rw [shapeCast_self]; rfl

/-- What the body stores in either result block: the new node state of the point's rows times the weight block. -/
theorem pay2_eq (x0 x1 : Vec Ideal S1000x128 .f32) (x2 : Vec Ideal S1x128 .f32) (x3 : Vec Ideal S128x128 .f32) :
    k2_pay2 (F := Ideal) x0 x1 x2 x3 = mmRows (hidden x0 x1 x2) x3 :=
  (congrArg₂ (fun a b => FloatOps.matmul (F := Ideal) dot_S1000x128_S128x128_S1000x128_1_0_0_1_n_n none a b
        (constant S1000x128 .f32 0x00000000#32))
      (hidden_ops x0 x1 x2 Facts₀.shapeCasts_S1000x128_S1000x128 Facts₀.shapeCasts_S1x128_S1x128 Facts₀.broadcasts_S1x128_S1000x128 Facts₀.bitsLt_bf16_f32)
      (weight_ops x3)).trans
    (matmulRows_eq Facts₀.dot_S1000x128_S128x128_S1000x128_1_0_0_1_n_n_wf none _ _)

theorem pay3_eq (x0 x1 : Vec Ideal S1000x128 .f32) (x2 : Vec Ideal S1x128 .f32) (x4 : Vec Ideal S128x128 .f32) :
    k2_pay3 (F := Ideal) x0 x1 x2 x4 = mmRows (hidden x0 x1 x2) x4 :=
  (congrArg₂ (fun a b => FloatOps.matmul (F := Ideal) dot_S1000x128_S128x128_S1000x128_1_0_0_1_n_n none a b
        (constant S1000x128 .f32 0x00000000#32))
      (hidden_ops x0 x1 x2 Facts₀.shapeCasts_S1000x128_S1000x128 Facts₀.shapeCasts_S1x128_S1x128 Facts₀.broadcasts_S1x128_S1000x128 Facts₀.bitsLt_bf16_f32)
      (weight_ops x4)).trans
    (matmulRows_eq Facts₀.dot_S1000x128_S128x128_S1000x128_1_0_0_1_n_n_wf none _ _)

/-! ## The windows' blocks -/

/-- The printed index maps over the grid: the row-blocked windows are at block `(t, 0)`, the others at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The self term's block at point `t` is its rows `1000 t …`. -/
theorem iblk_0 (c : Dev nD) (t : Fin cfg2.N) :
    (iblk2 V c 0 t : Vec Ideal S1000x128 .f32) = rowBlock 1000 t.val (rows_le t) (V c main_v26_1) := by
  obtain ⟨e0, e1, -⟩ := idx_facts t
  funext y
  show V c main_v26_1 (((cfg2.win 0).blk t).view.emb y) = V c main_v26_1 (ix2 ⟨1000 * t.val + (y 0).val, _⟩ (y 1))
  refine congrArg (V c main_v26_1) (funext fun a => Fin.ext ?_)
  match a with
  | ⟨0, _⟩ => show win2_0.index t (0 : Fin 2) * 1000 + 1 * (y 0).val = 1000 * t.val + (y 0).val; rw [e0]; omega
  | ⟨1, _⟩ => show win2_0.index t (1 : Fin 2) * 128 + 1 * (y 1).val = (y 1).val; rw [e1]; omega

/-- The aggregated messages' block at point `t` is its rows `1000 t …`. -/
theorem iblk_1 (c : Dev nD) (t : Fin cfg2.N) :
    (iblk2 V c 1 t : Vec Ideal S1000x128 .f32) = rowBlock 1000 t.val (rows_le t) (V c main_v36) := by
  obtain ⟨-, -, e0, e1, -⟩ := idx_facts t
  funext y
  show V c main_v36 (((cfg2.win 1).blk t).view.emb y) = V c main_v36 (ix2 ⟨1000 * t.val + (y 0).val, _⟩ (y 1))
  refine congrArg (V c main_v36) (funext fun a => Fin.ext ?_)
  match a with
  | ⟨0, _⟩ => show win2_1.index t (0 : Fin 2) * 1000 + 1 * (y 0).val = 1000 * t.val + (y 0).val; rw [e0]; omega
  | ⟨1, _⟩ => show win2_1.index t (1 : Fin 2) * 128 + 1 * (y 1).val = (y 1).val; rw [e1]; omega

/-- The bias row's block is the whole row at every point. -/
theorem iblk_2 (c : Dev nD) (t : Fin cfg2.N) : (iblk2 V c 2 t : Vec Ideal S1x128 .f32) = V c main_v39 := by
  obtain ⟨-, -, -, -, e0, e1, -⟩ := idx_facts t
  funext y
  show V c main_v39 (((cfg2.win 2).blk t).view.emb y) = V c main_v39 y
  refine congrArg (V c main_v39) (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The neighbour weights' block is the whole matrix at every point. -/
theorem iblk_3 (c : Dev nD) (t : Fin cfg2.N) : (iblk2 V c 3 t : Vec Ideal S128x128 .f32) = V c main_v41 := by
  obtain ⟨-, -, -, -, -, -, e0, e1, -⟩ := idx_facts t
  funext y
  show V c main_v41 (((cfg2.win 3).blk t).view.emb y) = V c main_v41 y
  refine congrArg (V c main_v41) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The self weights' block is the whole matrix at every point. -/
theorem iblk_4 (c : Dev nD) (t : Fin cfg2.N) : (iblk2 V c 4 t : Vec Ideal S128x128 .f32) = V c main_v43 := by
  obtain ⟨-, -, -, -, -, -, -, -, e0, e1, -⟩ := idx_facts t
  funext y
  show V c main_v43 (((cfg2.win 4).blk t).view.emb y) = V c main_v43 y
  refine congrArg (V c main_v43) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- Either result's block at point `t`, read off an array `G`, is rows `1000 t …` of `G`. -/
theorem read_rows5 (G : S10000x128.Idx → EReal) (t : Fin cfg2.N) :
    ((cfg2.win 5).blk t).view.read (Elt Ideal) G = rowBlock 1000 t.val (rows_le t) G := by
  obtain ⟨-, -, -, -, -, -, -, -, -, -, e0, e1, -⟩ := idx_facts t
  funext y
  show G (((cfg2.win 5).blk t).view.emb y) = G (ix2 ⟨1000 * t.val + (y 0).val, _⟩ (y 1))
  refine congrArg G (funext fun a => Fin.ext ?_)
  match a with
  | ⟨0, _⟩ => show win2_5.index t (0 : Fin 2) * 1000 + 1 * (y 0).val = 1000 * t.val + (y 0).val; rw [e0]; omega
  | ⟨1, _⟩ => show win2_5.index t (1 : Fin 2) * 128 + 1 * (y 1).val = (y 1).val; rw [e1]; omega

theorem read_rows6 (G : S10000x128.Idx → EReal) (t : Fin cfg2.N) :
    ((cfg2.win 6).blk t).view.read (Elt Ideal) G = rowBlock 1000 t.val (rows_le t) G := by
  obtain ⟨-, -, -, -, -, -, -, -, -, -, -, -, e0, e1⟩ := idx_facts t
  funext y
  show G (((cfg2.win 6).blk t).view.emb y) = G (ix2 ⟨1000 * t.val + (y 0).val, _⟩ (y 1))
  refine congrArg G (funext fun a => Fin.ext ?_)
  match a with
  | ⟨0, _⟩ => show win2_6.index t (0 : Fin 2) * 1000 + 1 * (y 0).val = 1000 * t.val + (y 0).val; rw [e0]; omega
  | ⟨1, _⟩ => show win2_6.index t (1 : Fin 2) * 128 + 1 * (y 1).val = (y 1).val; rw [e1]; omega

/-! ## The two results as functions of the region's input arrays -/

/-- The new node state of the arrays the region is entered with. -/
abbrev state (c : Dev nD) : S10000x128.Idx → EReal := hidden (V c main_v26_1) (V c main_v36) (V c main_v39)

/-- WHAT POINT `t` WRITES BACK to the first result is rows `1000 t …` of the new node state times the neighbour weights. -/
theorem flushed5_eq (c : Dev nD) (t : Fin cfg2.N) :
    (dat2 (F := Ideal) V c).flushed 5 t
      = ((cfg2.win 5).blk t).view.read (Elt Ideal) (mmRows (state V c) (V c main_v41)) := by
  show (cfg2.win 5).cut (grid2.coords t) ((dat2 (F := Ideal) V c).after 5 t) = _
  rw [after2_5, read_rows5, rowBlock_mmRows, rowBlock_hidden]
  unfold out2_5
  rw [View.canon_unit_zero hz]
  simp only [View.ld_unit_zero (S := S1000x128) hz, View.ld_unit_zero (S := S1x128) hz, View.ld_unit_zero (S := S128x128) hz]
  rw [pay2_eq, iblk_0, iblk_1, iblk_2, iblk_3]
  rfl

/-- WHAT POINT `t` WRITES BACK to the second result is rows `1000 t …` of the new node state times the self weights. -/
theorem flushed6_eq (c : Dev nD) (t : Fin cfg2.N) :
    (dat2 (F := Ideal) V c).flushed 6 t
      = ((cfg2.win 6).blk t).view.read (Elt Ideal) (mmRows (state V c) (V c main_v43)) := by
  show (cfg2.win 6).cut (grid2.coords t) ((dat2 (F := Ideal) V c).after 6 t) = _
  rw [after2_6, read_rows6, rowBlock_mmRows, rowBlock_hidden]
  unfold out2_6
  rw [View.canon_unit_zero hz]
  simp only [View.ld_unit_zero (S := S1000x128) hz, View.ld_unit_zero (S := S1x128) hz, View.ld_unit_zero (S := S128x128) hz]
  rw [pay3_eq, iblk_0, iblk_1, iblk_2, iblk_4]
  rfl

/-- An index of a result array is in point `t`'s block iff each coordinate is in the block's range on its axis. -/
theorem mem_blk5 (t : Fin cfg2.N) (i : S10000x128.Idx) :
    i ∈ ((cfg2.win 5).blk t).view.set ↔ ∀ a : Fin 2, win2_5.index t a * S1000x128.size a ≤ (i a).val ∧ (i a).val < win2_5.index t a * S1000x128.size a + S1000x128.size a := by
  show i ∈ ((View.whole main_v44_0).slice (win2_5.rect t)).set ↔ _
  rw [View.set_slice_whole, Rect.mem_set_unit]
  exact Iff.rfl

theorem mem_blk6 (t : Fin cfg2.N) (i : S10000x128.Idx) :
    i ∈ ((cfg2.win 6).blk t).view.set ↔ ∀ a : Fin 2, win2_6.index t a * S1000x128.size a ≤ (i a).val ∧ (i a).val < win2_6.index t a * S1000x128.size a + S1000x128.size a := by
  show i ∈ ((View.whole main_v44_1).slice (win2_6.rect t)).set ↔ _
  rw [View.set_slice_whole, Rect.mem_set_unit]
  exact Iff.rfl

/-- Row `r` is in the block of point `r / 1000`: the ten blocks of rows tile the array. -/
theorem cover5 (i : S10000x128.Idx) : ∃ t : Fin cfg2.N, (cfg2.win 5).flush t = true ∧ i ∈ ((cfg2.win 5).blk t).view.set := by
  have hi0 : (i 0).val < 10000 := (i 0).isLt
  have hi1 : (i 1).val < 128 := (i 1).isLt
  refine ⟨⟨(i 0).val / 1000, by rw [show cfg2.N = 10 from N_2]; omega⟩, flush2_5 _, ?_⟩
  rw [mem_blk5]
  obtain ⟨-, -, -, -, -, -, -, -, -, -, e0, e1, -⟩ := idx_facts ⟨(i 0).val / 1000, by rw [show cfg2.N = 10 from N_2]; omega⟩
  intro a
  match a with
  | ⟨0, _⟩ =>
    show win2_5.index _ (0 : Fin 2) * 1000 ≤ (i 0).val ∧ (i 0).val < win2_5.index _ (0 : Fin 2) * 1000 + 1000
    rw [e0]; show (i 0).val / 1000 * 1000 ≤ (i 0).val ∧ (i 0).val < (i 0).val / 1000 * 1000 + 1000; omega
  | ⟨1, _⟩ =>
    show win2_5.index _ (1 : Fin 2) * 128 ≤ (i 1).val ∧ (i 1).val < win2_5.index _ (1 : Fin 2) * 128 + 128
    rw [e1]; omega

theorem cover6 (i : S10000x128.Idx) : ∃ t : Fin cfg2.N, (cfg2.win 6).flush t = true ∧ i ∈ ((cfg2.win 6).blk t).view.set := by
  have hi0 : (i 0).val < 10000 := (i 0).isLt
  have hi1 : (i 1).val < 128 := (i 1).isLt
  refine ⟨⟨(i 0).val / 1000, by rw [show cfg2.N = 10 from N_2]; omega⟩, flush2_6 _, ?_⟩
  rw [mem_blk6]
  obtain ⟨-, -, -, -, -, -, -, -, -, -, -, -, e0, e1⟩ := idx_facts ⟨(i 0).val / 1000, by rw [show cfg2.N = 10 from N_2]; omega⟩
  intro a
  match a with
  | ⟨0, _⟩ =>
    show win2_6.index _ (0 : Fin 2) * 1000 ≤ (i 0).val ∧ (i 0).val < win2_6.index _ (0 : Fin 2) * 1000 + 1000
    rw [e0]; show (i 0).val / 1000 * 1000 ≤ (i 0).val ∧ (i 0).val < (i 0).val / 1000 * 1000 + 1000; omega
  | ⟨1, _⟩ =>
    show win2_6.index _ (1 : Fin 2) * 128 ≤ (i 1).val ∧ (i 1).val < win2_6.index _ (1 : Fin 2) * 128 + 128
    rw [e1]; omega

/-- AFTER THE REGION the first result array is the new node state times the neighbour weights. -/
theorem final5 (c : Dev nD) : (dat2 (F := Ideal) V c).arrAt 5 cfg2.N = mmRows (state V c) (V c main_v41) :=
  (dat2 (F := Ideal) V c).arrAt_eq_of_cover 5 _ (fun t _ => flushed5_eq V c t) cover5

/-- AFTER THE REGION the second result array is the new node state times the self weights. -/
theorem final6 (c : Dev nD) : (dat2 (F := Ideal) V c).arrAt 6 cfg2.N = mmRows (state V c) (V c main_v43) :=
  (dat2 (F := Ideal) V c).arrAt_eq_of_cover 6 _ (fun t _ => flushed6_eq V c t) cover6

end Cert.KernelIdeal.Region2

end
-- ==== Proof.Region3.lean ====
import proofs.«179397_j16784732192966_1_alg».proof.Proof.Gen.KernelIdeal.Frame
import proofs.«179397_j16784732192966_1_alg».proof.Proof.Spec

/-!
# Region 3: the last layer's node state and the output column, from blocks of rows to the whole array

The grid has ten points; point `t` reads rows `1000 t … 1000 t + 999` of the self term and of the aggregated
messages, the whole bias row, the whole output column of weights and the one output bias, and writes rows
`1000 t … 1000 t + 999` of the result column: the new node state `relu ((self + agg) + bias)` times the output
weights, plus the output bias. Both act row by row, so what point `t` writes is that block of rows of ONE function of
the whole input arrays; the ten blocks tile the column, so after the region the result IS that function of the arrays
the region was entered with.
-/

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)
open Cert.Gnn Cert.LibMatmulRows

variable (V : (c : Dev nD) → (b : Ref sig .tc) → Buf (Elt Ideal) ((c : Thread nD τ).loc b))

theorem hz : (![0, 0] : Fin 2 → Nat) = fun _ => 0 := funext fun a => by fin_cases a <;> rfl

/-- Ten points: a block of a thousand rows at each lies inside the ten thousand rows. -/
theorem rows_le (t : Fin cfg3.N) : 1000 * t.val + 1000 ≤ 10000 := by
  have h := t.isLt; have hN : cfg3.N = 10 := N_3; omega

/-! ## The body on whole blocks -/

/-- What the body stores in the result block: the output column of the new node state of the point's rows. -/
theorem pay1_eq (x0 x1 : Vec Ideal S1000x128 .f32) (x2 : Vec Ideal S1x128 .f32) (x3 : Vec Ideal S128x1 .f32)
    (x4 : Vec Ideal S1x1 .f32) :
    k3_pay1 (F := Ideal) x0 x1 x2 x3 x4 = logits (hidden x0 x1 x2) x3 x4 :=
  (congrArg (fun a => addf (F := Ideal) (φ := .f32)
        (FloatOps.matmul (F := Ideal) dot_S1000x128_S128x1_S1000x1_1_0_0_1_n_n none a
          (truncf (F := Ideal) (φ := .f32) .bf16 x3 Facts₀.bitsLt_bf16_f32) (constant S1000x1 .f32 0x00000000#32))
        (broadcastTo S1000x1 (shapeCast S1x1 x4 Facts₀.shapeCasts_S1x1_S1x1) Facts₀.broadcasts_S1x1_S1000x1))
      (hidden_ops x0 x1 x2 Facts₀.shapeCasts_S1000x128_S1000x128 Facts₀.shapeCasts_S1x128_S1x128
        Facts₀.broadcasts_S1x128_S1000x128 Facts₀.bitsLt_bf16_f32)).trans
    (logits_ops Facts₀.dot_S1000x128_S128x1_S1000x1_1_0_0_1_n_n_wf _ x3 x4 Facts₀.shapeCasts_S1x1_S1x1
      Facts₀.broadcasts_S1x1_S1000x1 Facts₀.bitsLt_bf16_f32)

/-! ## The windows' blocks -/

/-- The printed index maps over the grid: the row-blocked windows are at block `(t, 0)`, the others at `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The self term's block at point `t` is its rows `1000 t …`. -/
theorem iblk_0 (c : Dev nD) (t : Fin cfg3.N) :
    (iblk3 V c 0 t : Vec Ideal S1000x128 .f32) = rowBlock 1000 t.val (rows_le t) (V c main_v44_1) := by
  obtain ⟨e0, e1, -⟩ := idx_facts t
  funext y
  show V c main_v44_1 (((cfg3.win 0).blk t).view.emb y) = V c main_v44_1 (ix2 ⟨1000 * t.val + (y 0).val, _⟩ (y 1))
  refine congrArg (V c main_v44_1) (funext fun a => Fin.ext ?_)
  match a with
  | ⟨0, _⟩ => show win3_0.index t (0 : Fin 2) * 1000 + 1 * (y 0).val = 1000 * t.val + (y 0).val; rw [e0]; omega
  | ⟨1, _⟩ => show win3_0.index t (1 : Fin 2) * 128 + 1 * (y 1).val = (y 1).val; rw [e1]; omega

/-- The aggregated messages' block at point `t` is its rows `1000 t …`. -/
theorem iblk_1 (c : Dev nD) (t : Fin cfg3.N) :
    (iblk3 V c 1 t : Vec Ideal S1000x128 .f32) = rowBlock 1000 t.val (rows_le t) (V c main_v54) := by
  obtain ⟨-, -, e0, e1, -⟩ := idx_facts t
  funext y
  show V c main_v54 (((cfg3.win 1).blk t).view.emb y) = V c main_v54 (ix2 ⟨1000 * t.val + (y 0).val, _⟩ (y 1))
  refine congrArg (V c main_v54) (funext fun a => Fin.ext ?_)
  match a with
  | ⟨0, _⟩ => show win3_1.index t (0 : Fin 2) * 1000 + 1 * (y 0).val = 1000 * t.val + (y 0).val; rw [e0]; omega
  | ⟨1, _⟩ => show win3_1.index t (1 : Fin 2) * 128 + 1 * (y 1).val = (y 1).val; rw [e1]; omega

/-- The bias row's block is the whole row at every point. -/
theorem iblk_2 (c : Dev nD) (t : Fin cfg3.N) : (iblk3 V c 2 t : Vec Ideal S1x128 .f32) = V c main_v57 := by
  obtain ⟨-, -, -, -, e0, e1, -⟩ := idx_facts t
  funext y
  show V c main_v57 (((cfg3.win 2).blk t).view.emb y) = V c main_v57 y
  refine congrArg (V c main_v57) (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- The output weights' block is the whole column at every point. -/
theorem iblk_3 (c : Dev nD) (t : Fin cfg3.N) : (iblk3 V c 3 t : Vec Ideal S128x1 .f32) = V c main_arg6 := by
  obtain ⟨-, -, -, -, -, -, e0, e1, -⟩ := idx_facts t
  funext y
  show V c main_arg6 (((cfg3.win 3).blk t).view.emb y) = V c main_arg6 y
  refine congrArg (V c main_arg6) (funext fun a => Fin.ext ?_)
  match a with
  | ⟨0, _⟩ => show win3_3.index t (0 : Fin 2) * 128 + 1 * (y 0).val = (y 0).val; rw [e0]; omega
  | ⟨1, _⟩ => show win3_3.index t (1 : Fin 2) * 1 + 1 * (y 1).val = (y 1).val; rw [e1]; omega

/-- The output bias's block is its one entry at every point. -/
theorem iblk_4 (c : Dev nD) (t : Fin cfg3.N) : (iblk3 V c 4 t : Vec Ideal S1x1 .f32) = V c main_v58 := by
  obtain ⟨-, -, -, -, -, -, -, -, e0, e1, -⟩ := idx_facts t
  funext y
  show V c main_v58 (((cfg3.win 4).blk t).view.emb y) = V c main_v58 y
  refine congrArg (V c main_v58) (funext fun a => Fin.ext ?_)
  match a with
  | ⟨0, _⟩ => show win3_4.index t (0 : Fin 2) * 1 + 1 * (y 0).val = (y 0).val; rw [e0]; omega
  | ⟨1, _⟩ => show win3_4.index t (1 : Fin 2) * 1 + 1 * (y 1).val = (y 1).val; rw [e1]; omega

/-- The result's block at point `t`, read off a column `G`, is rows `1000 t …` of `G`. -/
theorem read_rows5 (G : S10000x1.Idx → EReal) (t : Fin cfg3.N) :
    ((cfg3.win 5).blk t).view.read (Elt Ideal) G = rowBlock 1000 t.val (rows_le t) G := by
  obtain ⟨-, -, -, -, -, -, -, -, -, -, e0, e1⟩ := idx_facts t
  funext y
  show G (((cfg3.win 5).blk t).view.emb y) = G (ix2 ⟨1000 * t.val + (y 0).val, _⟩ (y 1))
  refine congrArg G (funext fun a => Fin.ext ?_)
  match a with
  | ⟨0, _⟩ => show win3_5.index t (0 : Fin 2) * 1000 + 1 * (y 0).val = 1000 * t.val + (y 0).val; rw [e0]; omega
  | ⟨1, _⟩ => show win3_5.index t (1 : Fin 2) * 1 + 1 * (y 1).val = (y 1).val; rw [e1]; omega

/-! ## The result as a function of the region's input arrays -/

/-- The output column of the arrays the region is entered with. -/
abbrev column (c : Dev nD) : S10000x1.Idx → EReal :=
  logits (hidden (V c main_v44_1) (V c main_v54) (V c main_v57)) (V c main_arg6) (V c main_v58)

/-- WHAT POINT `t` WRITES BACK is rows `1000 t …` of the output column. -/
theorem flushed5_eq (c : Dev nD) (t : Fin cfg3.N) :
    (dat3 (F := Ideal) V c).flushed 5 t = ((cfg3.win 5).blk t).view.read (Elt Ideal) (column V c) := by
  show (cfg3.win 5).cut (grid3.coords t) ((dat3 (F := Ideal) V c).after 5 t) = _
  rw [after3_5, read_rows5, rowBlock_logits, rowBlock_hidden]
  unfold out3_5
  rw [View.canon_unit_zero hz]
  simp only [View.ld_unit_zero (S := S1000x128) hz, View.ld_unit_zero (S := S1x128) hz, View.ld_unit_zero (S := S128x1) hz,
    View.ld_unit_zero (S := S1x1) hz]
  rw [pay1_eq, iblk_0, iblk_1, iblk_2, iblk_3, iblk_4]
  rfl

/-- An index of the result column is in point `t`'s block iff each coordinate is in the block's range on its axis. -/
theorem mem_blk5 (t : Fin cfg3.N) (i : S10000x1.Idx) :
    i ∈ ((cfg3.win 5).blk t).view.set ↔ ∀ a : Fin 2, win3_5.index t a * S1000x1.size a ≤ (i a).val ∧ (i a).val < win3_5.index t a * S1000x1.size a + S1000x1.size a := by
  show i ∈ ((View.whole main_v59).slice (win3_5.rect t)).set ↔ _
  rw [View.set_slice_whole, Rect.mem_set_unit]
  exact Iff.rfl

/-- Row `r` is in the block of point `r / 1000`: the ten blocks of rows tile the column. -/
theorem cover5 (i : S10000x1.Idx) : ∃ t : Fin cfg3.N, (cfg3.win 5).flush t = true ∧ i ∈ ((cfg3.win 5).blk t).view.set := by
  have hi0 : (i 0).val < 10000 := (i 0).isLt
  have hi1 : (i 1).val < 1 := (i 1).isLt
  refine ⟨⟨(i 0).val / 1000, by rw [show cfg3.N = 10 from N_3]; omega⟩, flush3_5 _, ?_⟩
  rw [mem_blk5]
  obtain ⟨-, -, -, -, -, -, -, -, -, -, e0, e1⟩ := idx_facts ⟨(i 0).val / 1000, by rw [show cfg3.N = 10 from N_3]; omega⟩
  intro a
  match a with
  | ⟨0, _⟩ =>
    show win3_5.index _ (0 : Fin 2) * 1000 ≤ (i 0).val ∧ (i 0).val < win3_5.index _ (0 : Fin 2) * 1000 + 1000
    rw [e0]; show (i 0).val / 1000 * 1000 ≤ (i 0).val ∧ (i 0).val < (i 0).val / 1000 * 1000 + 1000; omega
  | ⟨1, _⟩ =>
    show win3_5.index _ (1 : Fin 2) * 1 ≤ (i 1).val ∧ (i 1).val < win3_5.index _ (1 : Fin 2) * 1 + 1
    rw [e1]; omega

/-- AFTER THE REGION the result column is the output column of the region's input arrays. -/
theorem final5 (c : Dev nD) : (dat3 (F := Ideal) V c).arrAt 5 cfg3.N = column V c :=
  (dat3 (F := Ideal) V c).arrAt_eq_of_cover 5 _ (fun t _ => flushed5_eq V c t) cover5

end Cert.KernelIdeal.Region3

end
-- ==== Proof.Net.lean ====
import proofs.«179397_j16784732192966_1_alg».proof.Proof.Gen.KernelIdeal
import proofs.«179397_j16784732192966_1_alg».proof.Proof.Spec

/-!
# The whole network as one function of the eight argument arrays

`x0` node features `[10000, 16]`, `x1` the edges `[2, 640000]` (row 0 the source node of each edge, row 1 its target),
`x2` the embedding matrix, `x3` / `x4` the three self / neighbour weight matrices, `x5` the three bias rows, `x6` the
output column of weights, `x7` the output bias.
* `srcIdx`, `dstIdx`: the two rows of `x1` as index columns `[640000, 1]`; a negative source index has `10000` added,
  as indexing an array with it does.
* `agg T`: the messages `T[src]` — row `e` is row `src e` of `T` — summed into their target rows, from zero.
* `h0 = relu (x0 · W_in)`, and layer `l` takes `h` to `hidden (h · W_self[l]) (agg (h · W_nbr[l])) b[l]`.
* `result`: the output column `h3 · W_out + b_out` as a flat array.
The per-edge product is taken BEFORE the gather here: `(h · W)[src]`, one product of ten thousand rows.
-/

noncomputable section

namespace Cert.KernelIdeal.Net

open Cert.KernelIdeal
open Idealize.ShloMosaic Idealize.ShloMosaic.ValueIdx
open Cert.Gnn Cert.LibMatmulRows

variable (x0 : S10000x16.Idx → EReal) (x1 : IVec S2x640000 32) (x2 : S16x128.Idx → EReal)
  (x3 x4 : S3x128x128.Idx → EReal) (x5 : S3x128.Idx → EReal) (x6 : S128x1.Idx → EReal) (x7 : S1.Idx → EReal)

/-- Each edge's source node: row 0 of the edge array. -/
def src : IVec S640000 32 :=
  shapeCast S640000 (extractStridedSlice S1x640000 ![0, 0] x1 Facts₀.slices_S2x640000_S1x640000_0_0) Facts₀.shapeCasts_S1x640000_S640000

/-- Each edge's target node: row 1 of the edge array. -/
def dst : IVec S640000 32 :=
  shapeCast S640000 (extractStridedSlice S1x640000 ![1, 0] x1 Facts₀.slices_S2x640000_S1x640000_1_0) Facts₀.shapeCasts_S1x640000_S640000

/-- The source nodes as an index column, a negative index counted from the end. -/
def srcIdx : IVec S640000x1 32 :=
  broadcastInDim S640000x1 ![0] Facts₀.bcast_S640000_S640000x1_0
    (select (cmpi .slt (src x1) (broadcastInDim S640000 ![] Facts₀.bcast_S_S640000 (constantI S_ 32 0#32)))
      (addi (src x1) (broadcastInDim S640000 ![] Facts₀.bcast_S_S640000 (constantI S_ 32 10000#32))) (src x1))

/-- The target nodes as an index column. -/
def dstIdx : IVec S640000x1 32 := broadcastInDim S640000x1 ![0] Facts₀.bcast_S640000_S640000x1_0 (dst x1)

/-- The zero array the messages are summed into. -/
def zeros : S10000x128.Idx → EReal :=
  broadcastInDim S10000x128 ![] Facts₀.bcast_S_S10000x128 (constant (F := Ideal) S_ .f32 0x00000000#32)

/-- The messages `T[src]` summed into their target rows. -/
def agg (T : S10000x128.Idx → EReal) : S10000x128.Idx → EReal :=
  Host.scatterAdd (F := Ideal) (φ := .f32) scatter_S10000x128_S640000x1_S640000x128_1_0_0_1 zeros (dstIdx x1)
    (Host.gather gather_S10000x128_S640000x1_S640000x128_1_0_n_n_0_1_1128 T (srcIdx x1))

def wn0 : S128x128.Idx → EReal := shapeCast S128x128 (extractStridedSlice S1x128x128 ![0, 0, 0] x4 Facts₀.slices_S3x128x128_S1x128x128_0_0_0) Facts₀.shapeCasts_S1x128x128_S128x128
def wn1 : S128x128.Idx → EReal := shapeCast S128x128 (extractStridedSlice S1x128x128 ![1, 0, 0] x4 Facts₀.slices_S3x128x128_S1x128x128_1_0_0) Facts₀.shapeCasts_S1x128x128_S128x128
def wn2 : S128x128.Idx → EReal := shapeCast S128x128 (extractStridedSlice S1x128x128 ![2, 0, 0] x4 Facts₀.slices_S3x128x128_S1x128x128_2_0_0) Facts₀.shapeCasts_S1x128x128_S128x128
def ws0 : S128x128.Idx → EReal := shapeCast S128x128 (extractStridedSlice S1x128x128 ![0, 0, 0] x3 Facts₀.slices_S3x128x128_S1x128x128_0_0_0) Facts₀.shapeCasts_S1x128x128_S128x128
def ws1 : S128x128.Idx → EReal := shapeCast S128x128 (extractStridedSlice S1x128x128 ![1, 0, 0] x3 Facts₀.slices_S3x128x128_S1x128x128_1_0_0) Facts₀.shapeCasts_S1x128x128_S128x128
def ws2 : S128x128.Idx → EReal := shapeCast S128x128 (extractStridedSlice S1x128x128 ![2, 0, 0] x3 Facts₀.slices_S3x128x128_S1x128x128_2_0_0) Facts₀.shapeCasts_S1x128x128_S128x128

def brow0 : S1x128.Idx → EReal := shapeCast S1x128 (shapeCast S128 (extractStridedSlice S1x128 ![0, 0] x5 Facts₀.slices_S3x128_S1x128_0_0) Facts₀.shapeCasts_S1x128_S128) Facts₀.shapeCasts_S128_S1x128
def brow1 : S1x128.Idx → EReal := shapeCast S1x128 (shapeCast S128 (extractStridedSlice S1x128 ![1, 0] x5 Facts₀.slices_S3x128_S1x128_1_0) Facts₀.shapeCasts_S1x128_S128) Facts₀.shapeCasts_S128_S1x128
def brow2 : S1x128.Idx → EReal := shapeCast S1x128 (shapeCast S128 (extractStridedSlice S1x128 ![2, 0] x5 Facts₀.slices_S3x128_S1x128_2_0) Facts₀.shapeCasts_S1x128_S128) Facts₀.shapeCasts_S128_S1x128

/-- The output bias as a one-by-one array. -/
def bout : S1x1.Idx → EReal := shapeCast S1x1 x7 Facts₀.shapeCasts_S1_S1x1

/-- The embedded node features. -/
def h0 : S10000x128.Idx → EReal := relu (mmRows x0 x2)
/-- The node states after each of the three layers. -/
def h1 : S10000x128.Idx → EReal := hidden (mmRows (h0 x0 x2) (ws0 x3)) (agg x1 (mmRows (h0 x0 x2) (wn0 x4))) (brow0 x5)
def h2 : S10000x128.Idx → EReal :=
  hidden (mmRows (h1 x0 x1 x2 x3 x4 x5) (ws1 x3)) (agg x1 (mmRows (h1 x0 x1 x2 x3 x4 x5) (wn1 x4))) (brow1 x5)
def h3 : S10000x128.Idx → EReal :=
  hidden (mmRows (h2 x0 x1 x2 x3 x4 x5) (ws2 x3)) (agg x1 (mmRows (h2 x0 x1 x2 x3 x4 x5) (wn2 x4))) (brow2 x5)

/-- The program's result. -/
def result : S10000.Idx → EReal :=
  shapeCast S10000 (logits (h3 x0 x1 x2 x3 x4 x5) x6 (bout x7)) Facts₀.shapeCasts_S10000x1_S10000

end Cert.KernelIdeal.Net

end
-- ==== Proof.Chain.lean ====
import proofs.«179397_j16784732192966_1_alg».proof.Proof.Gen.KernelIdeal.Frame
import proofs.«179397_j16784732192966_1_alg».proof.Proof.Region0
import proofs.«179397_j16784732192966_1_alg».proof.Proof.Region1
import proofs.«179397_j16784732192966_1_alg».proof.Proof.Region2
import proofs.«179397_j16784732192966_1_alg».proof.Proof.Region3
import proofs.«179397_j16784732192966_1_alg».proof.Proof.Net
import Idealize.ShloMosaic.Lib.StableHlo.Run

/-!
# From the launch memory to the result, boundary by boundary

The program is five stretches of host operations with a region between each two. `Wk` is what the buffers hold at
boundary `k`. Each lemma below reads ONE buffer at ONE boundary as a term of the launch memory's eight argument
arrays: a buffer no operation of a stretch writes, and no window of a region has as its array, keeps its contents; a
host operation's result is its function of its operands' contents; a region's result arrays are the functions of its
input arrays that the four region modules establish, at the contents the region is entered with. Chained, the result
buffer at the last boundary is `Net.result` of the argument arrays.
-/

set_option maxRecDepth 16384

noncomputable section

namespace Cert.KernelIdeal.Chain

open Cert.KernelIdeal Cert.KernelIdeal.Gen Cert.KernelIdeal.Net
open Idealize.ShloMosaic Idealize.ShloMosaic.TcCoe Idealize.SL.Sem Idealize.ShloMosaic.ValueIdx Idealize.ShloMosaic.StableHlo
open Idealize.ShloMosaic.Pipeline (Dat)
open Cert.Gnn Cert.LibMatmulRows

variable (m : (ℓ : Loc nD τ sig) → Buf (Elt Ideal) ℓ) (ρ : Dev nD → PrngReg) (c : Dev nD)

/-- The launch memory's argument arrays. -/
abbrev a0 : S10000x16.Idx → EReal := m ((c : Thread nD τ).loc main_arg0)
abbrev a1 : IVec S2x640000 32 := m ((c : Thread nD τ).loc main_arg1)
abbrev a2 : S16x128.Idx → EReal := m ((c : Thread nD τ).loc main_arg2)
abbrev a3 : S3x128x128.Idx → EReal := m ((c : Thread nD τ).loc main_arg3)
abbrev a4 : S3x128x128.Idx → EReal := m ((c : Thread nD τ).loc main_arg4)
abbrev a5 : S3x128.Idx → EReal := m ((c : Thread nD τ).loc main_arg5)
abbrev a6 : S128x1.Idx → EReal := m ((c : Thread nD τ).loc main_arg6)
abbrev a7 : S1.Idx → EReal := m ((c : Thread nD τ).loc main_arg7)

/-! ## After the first host stretch: the two index arrays, the first layer's weights -/

theorem w1_main_arg0 : (W1 (F := Ideal) m ρ c (Proc.devRef .tc main_arg0) : S10000x16.Idx → EReal) = (a0 m c) := by
  dsimp only [W1, hostOps0]
  after_results

theorem w1_main_arg2 : (W1 (F := Ideal) m ρ c (Proc.devRef .tc main_arg2) : S16x128.Idx → EReal) = (a2 m c) := by
  dsimp only [W1, hostOps0]
  after_results

theorem w1_main_arg3 : (W1 (F := Ideal) m ρ c (Proc.devRef .tc main_arg3) : S3x128x128.Idx → EReal) = (a3 m c) := by
  dsimp only [W1, hostOps0]
  after_results

theorem w1_main_arg4 : (W1 (F := Ideal) m ρ c (Proc.devRef .tc main_arg4) : S3x128x128.Idx → EReal) = (a4 m c) := by
  dsimp only [W1, hostOps0]
  after_results

theorem w1_main_arg5 : (W1 (F := Ideal) m ρ c (Proc.devRef .tc main_arg5) : S3x128.Idx → EReal) = (a5 m c) := by
  dsimp only [W1, hostOps0]
  after_results

theorem w1_main_arg6 : (W1 (F := Ideal) m ρ c (Proc.devRef .tc main_arg6) : S128x1.Idx → EReal) = (a6 m c) := by
  dsimp only [W1, hostOps0]
  after_results

theorem w1_main_arg7 : (W1 (F := Ideal) m ρ c (Proc.devRef .tc main_arg7) : S1.Idx → EReal) = (a7 m c) := by
  dsimp only [W1, hostOps0]
  after_results

theorem w1_main_v1 : (W1 (F := Ideal) m ρ c (Proc.devRef .tc main_v1) : IVec S640000 32) = (src (a1 m c)) := by
  dsimp only [W1, hostOps0]
  after_results
  rfl

theorem w1_main_v3 : (W1 (F := Ideal) m ρ c (Proc.devRef .tc main_v3) : IVec S640000 32) = (dst (a1 m c)) := by
  dsimp only [W1, hostOps0]
  after_results
  rfl

theorem w1_main_v5 : (W1 (F := Ideal) m ρ c (Proc.devRef .tc main_v5) : S128x128.Idx → EReal) = wn0 (a4 m c) := by
  dsimp only [W1, hostOps0]
  after_results
  rfl

theorem w1_main_v7 : (W1 (F := Ideal) m ρ c (Proc.devRef .tc main_v7) : S128x128.Idx → EReal) = ws0 (a3 m c) := by
  dsimp only [W1, hostOps0]
  after_results
  rfl

/-! ## After region 0: the embedded features times the first layer's two weight matrices -/

theorem w2_main_v8_0 : (W2 (F := Ideal) m ρ c (Proc.devRef .tc main_v8_0) : S10000x128.Idx → EReal) = mmRows (h0 (a0 m c) (a2 m c)) (wn0 (a4 m c)) :=
  (W2_arr m ρ c 4).trans ((Region0.final4 (V1 m ρ) c).trans (by
    show mmRows (relu (mmRows (W1 (F := Ideal) m ρ c (Proc.devRef .tc main_arg0)) (W1 (F := Ideal) m ρ c (Proc.devRef .tc main_arg2)))) (W1 (F := Ideal) m ρ c (Proc.devRef .tc main_v5)) = _
    rw [w1_main_arg0, w1_main_arg2, w1_main_v5]; rfl))

theorem w2_main_v8_1 : (W2 (F := Ideal) m ρ c (Proc.devRef .tc main_v8_1) : S10000x128.Idx → EReal) = mmRows (h0 (a0 m c) (a2 m c)) (ws0 (a3 m c)) :=
  (W2_arr m ρ c 5).trans ((Region0.final5 (V1 m ρ) c).trans (by
    show mmRows (relu (mmRows (W1 (F := Ideal) m ρ c (Proc.devRef .tc main_arg0)) (W1 (F := Ideal) m ρ c (Proc.devRef .tc main_arg2)))) (W1 (F := Ideal) m ρ c (Proc.devRef .tc main_v7)) = _
    rw [w1_main_arg0, w1_main_arg2, w1_main_v7]; rfl))

theorem w2_main_arg3 : (W2 (F := Ideal) m ρ c (Proc.devRef .tc main_arg3) : S3x128x128.Idx → EReal) = (a3 m c) :=
  (W2_of_ne m ρ c main_arg3 (by decide)).trans (w1_main_arg3 m ρ c)

theorem w2_main_arg4 : (W2 (F := Ideal) m ρ c (Proc.devRef .tc main_arg4) : S3x128x128.Idx → EReal) = (a4 m c) :=
  (W2_of_ne m ρ c main_arg4 (by decide)).trans (w1_main_arg4 m ρ c)

theorem w2_main_arg5 : (W2 (F := Ideal) m ρ c (Proc.devRef .tc main_arg5) : S3x128.Idx → EReal) = (a5 m c) :=
  (W2_of_ne m ρ c main_arg5 (by decide)).trans (w1_main_arg5 m ρ c)

theorem w2_main_arg6 : (W2 (F := Ideal) m ρ c (Proc.devRef .tc main_arg6) : S128x1.Idx → EReal) = (a6 m c) :=
  (W2_of_ne m ρ c main_arg6 (by decide)).trans (w1_main_arg6 m ρ c)

theorem w2_main_arg7 : (W2 (F := Ideal) m ρ c (Proc.devRef .tc main_arg7) : S1.Idx → EReal) = (a7 m c) :=
  (W2_of_ne m ρ c main_arg7 (by decide)).trans (w1_main_arg7 m ρ c)

theorem w2_main_v1 : (W2 (F := Ideal) m ρ c (Proc.devRef .tc main_v1) : IVec S640000 32) = (src (a1 m c)) :=
  (W2_of_ne m ρ c main_v1 (by decide)).trans (w1_main_v1 m ρ c)

theorem w2_main_v3 : (W2 (F := Ideal) m ρ c (Proc.devRef .tc main_v3) : IVec S640000 32) = (dst (a1 m c)) :=
  (W2_of_ne m ρ c main_v3 (by decide)).trans (w1_main_v3 m ρ c)

/-! ## After host stretch 1: layer 0's aggregated messages and bias row, layer 1's weights -/

theorem w3_main_arg3 : (W3 (F := Ideal) m ρ c (Proc.devRef .tc main_arg3) : S3x128x128.Idx → EReal) = (a3 m c) := by
  dsimp only [W3, hostOps1]
  after_results
  exact w2_main_arg3 m ρ c

theorem w3_main_arg4 : (W3 (F := Ideal) m ρ c (Proc.devRef .tc main_arg4) : S3x128x128.Idx → EReal) = (a4 m c) := by
  dsimp only [W3, hostOps1]
  after_results
  exact w2_main_arg4 m ρ c

theorem w3_main_arg5 : (W3 (F := Ideal) m ρ c (Proc.devRef .tc main_arg5) : S3x128.Idx → EReal) = (a5 m c) := by
  dsimp only [W3, hostOps1]
  after_results
  exact w2_main_arg5 m ρ c

theorem w3_main_arg6 : (W3 (F := Ideal) m ρ c (Proc.devRef .tc main_arg6) : S128x1.Idx → EReal) = (a6 m c) := by
  dsimp only [W3, hostOps1]
  after_results
  exact w2_main_arg6 m ρ c

theorem w3_main_arg7 : (W3 (F := Ideal) m ρ c (Proc.devRef .tc main_arg7) : S1.Idx → EReal) = (a7 m c) := by
  dsimp only [W3, hostOps1]
  after_results
  exact w2_main_arg7 m ρ c

theorem w3_main_v1 : (W3 (F := Ideal) m ρ c (Proc.devRef .tc main_v1) : IVec S640000 32) = (src (a1 m c)) := by
  dsimp only [W3, hostOps1]
  after_results
  exact w2_main_v1 m ρ c

theorem w3_main_v3 : (W3 (F := Ideal) m ρ c (Proc.devRef .tc main_v3) : IVec S640000 32) = (dst (a1 m c)) := by
  dsimp only [W3, hostOps1]
  after_results
  exact w2_main_v3 m ρ c

theorem w3_main_v8_1 : (W3 (F := Ideal) m ρ c (Proc.devRef .tc main_v8_1) : S10000x128.Idx → EReal) = mmRows (h0 (a0 m c) (a2 m c)) (ws0 (a3 m c)) := by
  dsimp only [W3, hostOps1]
  after_results
  exact w2_main_v8_1 m ρ c

set_option maxHeartbeats 1600000 in
theorem w3_main_v18 : (W3 (F := Ideal) m ρ c (Proc.devRef .tc main_v18) : S10000x128.Idx → EReal) = agg (a1 m c) (mmRows (h0 (a0 m c) (a2 m c)) (wn0 (a4 m c))) := by
  dsimp only [W3, hostOps1]
  after_results
  rw [w2_main_v8_0, w2_main_v1, w2_main_v3]
  rfl

theorem w3_main_v21 : (W3 (F := Ideal) m ρ c (Proc.devRef .tc main_v21) : S1x128.Idx → EReal) = brow0 (a5 m c) := by
  dsimp only [W3, hostOps1]
  after_results
  rw [w2_main_arg5]
  rfl

theorem w3_main_v23 : (W3 (F := Ideal) m ρ c (Proc.devRef .tc main_v23) : S128x128.Idx → EReal) = wn1 (a4 m c) := by
  dsimp only [W3, hostOps1]
  after_results
  rw [w2_main_arg4]
  rfl

theorem w3_main_v25 : (W3 (F := Ideal) m ρ c (Proc.devRef .tc main_v25) : S128x128.Idx → EReal) = ws1 (a3 m c) := by
  dsimp only [W3, hostOps1]
  after_results
  rw [w2_main_arg3]
  rfl

/-! ## After region 1: layer 0's node state times layer 1's two weight matrices -/

theorem w4_main_v26_0 : (W4 (F := Ideal) m ρ c (Proc.devRef .tc main_v26_0) : S10000x128.Idx → EReal) = mmRows (h1 (a0 m c) (a1 m c) (a2 m c) (a3 m c) (a4 m c) (a5 m c)) (wn1 (a4 m c)) :=
  (W4_arr m ρ c 5).trans ((Region1.final5 (V3 m ρ) c).trans (by
    show mmRows (hidden (W3 (F := Ideal) m ρ c (Proc.devRef .tc main_v8_1)) (W3 (F := Ideal) m ρ c (Proc.devRef .tc main_v18)) (W3 (F := Ideal) m ρ c (Proc.devRef .tc main_v21))) (W3 (F := Ideal) m ρ c (Proc.devRef .tc main_v23)) = _
    rw [w3_main_v8_1, w3_main_v18, w3_main_v21, w3_main_v23]; rfl))

theorem w4_main_v26_1 : (W4 (F := Ideal) m ρ c (Proc.devRef .tc main_v26_1) : S10000x128.Idx → EReal) = mmRows (h1 (a0 m c) (a1 m c) (a2 m c) (a3 m c) (a4 m c) (a5 m c)) (ws1 (a3 m c)) :=
  (W4_arr m ρ c 6).trans ((Region1.final6 (V3 m ρ) c).trans (by
    show mmRows (hidden (W3 (F := Ideal) m ρ c (Proc.devRef .tc main_v8_1)) (W3 (F := Ideal) m ρ c (Proc.devRef .tc main_v18)) (W3 (F := Ideal) m ρ c (Proc.devRef .tc main_v21))) (W3 (F := Ideal) m ρ c (Proc.devRef .tc main_v25)) = _
    rw [w3_main_v8_1, w3_main_v18, w3_main_v21, w3_main_v25]; rfl))

theorem w4_main_arg3 : (W4 (F := Ideal) m ρ c (Proc.devRef .tc main_arg3) : S3x128x128.Idx → EReal) = (a3 m c) :=
  (W4_of_ne m ρ c main_arg3 (by decide)).trans (w3_main_arg3 m ρ c)

theorem w4_main_arg4 : (W4 (F := Ideal) m ρ c (Proc.devRef .tc main_arg4) : S3x128x128.Idx → EReal) = (a4 m c) :=
  (W4_of_ne m ρ c main_arg4 (by decide)).trans (w3_main_arg4 m ρ c)

theorem w4_main_arg5 : (W4 (F := Ideal) m ρ c (Proc.devRef .tc main_arg5) : S3x128.Idx → EReal) = (a5 m c) :=
  (W4_of_ne m ρ c main_arg5 (by decide)).trans (w3_main_arg5 m ρ c)

theorem w4_main_arg6 : (W4 (F := Ideal) m ρ c (Proc.devRef .tc main_arg6) : S128x1.Idx → EReal) = (a6 m c) :=
  (W4_of_ne m ρ c main_arg6 (by decide)).trans (w3_main_arg6 m ρ c)

theorem w4_main_arg7 : (W4 (F := Ideal) m ρ c (Proc.devRef .tc main_arg7) : S1.Idx → EReal) = (a7 m c) :=
  (W4_of_ne m ρ c main_arg7 (by decide)).trans (w3_main_arg7 m ρ c)

theorem w4_main_v1 : (W4 (F := Ideal) m ρ c (Proc.devRef .tc main_v1) : IVec S640000 32) = (src (a1 m c)) :=
  (W4_of_ne m ρ c main_v1 (by decide)).trans (w3_main_v1 m ρ c)

theorem w4_main_v3 : (W4 (F := Ideal) m ρ c (Proc.devRef .tc main_v3) : IVec S640000 32) = (dst (a1 m c)) :=
  (W4_of_ne m ρ c main_v3 (by decide)).trans (w3_main_v3 m ρ c)

/-! ## After host stretch 2: layer 1's aggregated messages and bias row, layer 2's weights -/

theorem w5_main_arg5 : (W5 (F := Ideal) m ρ c (Proc.devRef .tc main_arg5) : S3x128.Idx → EReal) = (a5 m c) := by
  dsimp only [W5, hostOps2]
  after_results
  exact w4_main_arg5 m ρ c

theorem w5_main_arg6 : (W5 (F := Ideal) m ρ c (Proc.devRef .tc main_arg6) : S128x1.Idx → EReal) = (a6 m c) := by
  dsimp only [W5, hostOps2]
  after_results
  exact w4_main_arg6 m ρ c

theorem w5_main_arg7 : (W5 (F := Ideal) m ρ c (Proc.devRef .tc main_arg7) : S1.Idx → EReal) = (a7 m c) := by
  dsimp only [W5, hostOps2]
  after_results
  exact w4_main_arg7 m ρ c

theorem w5_main_v1 : (W5 (F := Ideal) m ρ c (Proc.devRef .tc main_v1) : IVec S640000 32) = (src (a1 m c)) := by
  dsimp only [W5, hostOps2]
  after_results
  exact w4_main_v1 m ρ c

theorem w5_main_v3 : (W5 (F := Ideal) m ρ c (Proc.devRef .tc main_v3) : IVec S640000 32) = (dst (a1 m c)) := by
  dsimp only [W5, hostOps2]
  after_results
  exact w4_main_v3 m ρ c

theorem w5_main_v26_1 : (W5 (F := Ideal) m ρ c (Proc.devRef .tc main_v26_1) : S10000x128.Idx → EReal) = mmRows (h1 (a0 m c) (a1 m c) (a2 m c) (a3 m c) (a4 m c) (a5 m c)) (ws1 (a3 m c)) := by
  dsimp only [W5, hostOps2]
  after_results
  exact w4_main_v26_1 m ρ c

set_option maxHeartbeats 1600000 in
theorem w5_main_v36 : (W5 (F := Ideal) m ρ c (Proc.devRef .tc main_v36) : S10000x128.Idx → EReal) = agg (a1 m c) (mmRows (h1 (a0 m c) (a1 m c) (a2 m c) (a3 m c) (a4 m c) (a5 m c)) (wn1 (a4 m c))) := by
  dsimp only [W5, hostOps2]
  after_results
  rw [w4_main_v26_0, w4_main_v1, w4_main_v3]
  rfl

theorem w5_main_v39 : (W5 (F := Ideal) m ρ c (Proc.devRef .tc main_v39) : S1x128.Idx → EReal) = brow1 (a5 m c) := by
  dsimp only [W5, hostOps2]
  after_results
  rw [w4_main_arg5]
  rfl

theorem w5_main_v41 : (W5 (F := Ideal) m ρ c (Proc.devRef .tc main_v41) : S128x128.Idx → EReal) = wn2 (a4 m c) := by
  dsimp only [W5, hostOps2]
  after_results
  rw [w4_main_arg4]
  rfl

theorem w5_main_v43 : (W5 (F := Ideal) m ρ c (Proc.devRef .tc main_v43) : S128x128.Idx → EReal) = ws2 (a3 m c) := by
  dsimp only [W5, hostOps2]
  after_results
  rw [w4_main_arg3]
  rfl

/-! ## After region 2: layer 1's node state times layer 2's two weight matrices -/

theorem w6_main_v44_0 : (W6 (F := Ideal) m ρ c (Proc.devRef .tc main_v44_0) : S10000x128.Idx → EReal) = mmRows (h2 (a0 m c) (a1 m c) (a2 m c) (a3 m c) (a4 m c) (a5 m c)) (wn2 (a4 m c)) :=
  (W6_arr m ρ c 5).trans ((Region2.final5 (V5 m ρ) c).trans (by
    show mmRows (hidden (W5 (F := Ideal) m ρ c (Proc.devRef .tc main_v26_1)) (W5 (F := Ideal) m ρ c (Proc.devRef .tc main_v36)) (W5 (F := Ideal) m ρ c (Proc.devRef .tc main_v39))) (W5 (F := Ideal) m ρ c (Proc.devRef .tc main_v41)) = _
    rw [w5_main_v26_1, w5_main_v36, w5_main_v39, w5_main_v41]; rfl))

theorem w6_main_v44_1 : (W6 (F := Ideal) m ρ c (Proc.devRef .tc main_v44_1) : S10000x128.Idx → EReal) = mmRows (h2 (a0 m c) (a1 m c) (a2 m c) (a3 m c) (a4 m c) (a5 m c)) (ws2 (a3 m c)) :=
  (W6_arr m ρ c 6).trans ((Region2.final6 (V5 m ρ) c).trans (by
    show mmRows (hidden (W5 (F := Ideal) m ρ c (Proc.devRef .tc main_v26_1)) (W5 (F := Ideal) m ρ c (Proc.devRef .tc main_v36)) (W5 (F := Ideal) m ρ c (Proc.devRef .tc main_v39))) (W5 (F := Ideal) m ρ c (Proc.devRef .tc main_v43)) = _
    rw [w5_main_v26_1, w5_main_v36, w5_main_v39, w5_main_v43]; rfl))

theorem w6_main_arg5 : (W6 (F := Ideal) m ρ c (Proc.devRef .tc main_arg5) : S3x128.Idx → EReal) = (a5 m c) :=
  (W6_of_ne m ρ c main_arg5 (by decide)).trans (w5_main_arg5 m ρ c)

theorem w6_main_arg6 : (W6 (F := Ideal) m ρ c (Proc.devRef .tc main_arg6) : S128x1.Idx → EReal) = (a6 m c) :=
  (W6_of_ne m ρ c main_arg6 (by decide)).trans (w5_main_arg6 m ρ c)

theorem w6_main_arg7 : (W6 (F := Ideal) m ρ c (Proc.devRef .tc main_arg7) : S1.Idx → EReal) = (a7 m c) :=
  (W6_of_ne m ρ c main_arg7 (by decide)).trans (w5_main_arg7 m ρ c)

theorem w6_main_v1 : (W6 (F := Ideal) m ρ c (Proc.devRef .tc main_v1) : IVec S640000 32) = (src (a1 m c)) :=
  (W6_of_ne m ρ c main_v1 (by decide)).trans (w5_main_v1 m ρ c)

theorem w6_main_v3 : (W6 (F := Ideal) m ρ c (Proc.devRef .tc main_v3) : IVec S640000 32) = (dst (a1 m c)) :=
  (W6_of_ne m ρ c main_v3 (by decide)).trans (w5_main_v3 m ρ c)

/-! ## After host stretch 3: layer 2's aggregated messages and bias row, the output bias -/

theorem w7_main_arg6 : (W7 (F := Ideal) m ρ c (Proc.devRef .tc main_arg6) : S128x1.Idx → EReal) = (a6 m c) := by
  dsimp only [W7, hostOps3]
  after_results
  exact w6_main_arg6 m ρ c

theorem w7_main_v44_1 : (W7 (F := Ideal) m ρ c (Proc.devRef .tc main_v44_1) : S10000x128.Idx → EReal) = mmRows (h2 (a0 m c) (a1 m c) (a2 m c) (a3 m c) (a4 m c) (a5 m c)) (ws2 (a3 m c)) := by
  dsimp only [W7, hostOps3]
  after_results
  exact w6_main_v44_1 m ρ c

set_option maxHeartbeats 1600000 in
theorem w7_main_v54 : (W7 (F := Ideal) m ρ c (Proc.devRef .tc main_v54) : S10000x128.Idx → EReal) = agg (a1 m c) (mmRows (h2 (a0 m c) (a1 m c) (a2 m c) (a3 m c) (a4 m c) (a5 m c)) (wn2 (a4 m c))) := by
  dsimp only [W7, hostOps3]
  after_results
  rw [w6_main_v44_0, w6_main_v1, w6_main_v3]
  rfl

theorem w7_main_v57 : (W7 (F := Ideal) m ρ c (Proc.devRef .tc main_v57) : S1x128.Idx → EReal) = brow2 (a5 m c) := by
  dsimp only [W7, hostOps3]
  after_results
  rw [w6_main_arg5]
  rfl

theorem w7_main_v58 : (W7 (F := Ideal) m ρ c (Proc.devRef .tc main_v58) : S1x1.Idx → EReal) = bout (a7 m c) := by
  dsimp only [W7, hostOps3]
  after_results
  rw [w6_main_arg7]
  rfl

/-! ## After region 3: the output column -/

theorem w8_main_v59 : (W8 (F := Ideal) m ρ c (Proc.devRef .tc main_v59) : S10000x1.Idx → EReal) = logits (h3 (a0 m c) (a1 m c) (a2 m c) (a3 m c) (a4 m c) (a5 m c)) (a6 m c) (bout (a7 m c)) :=
  (W8_arr m ρ c 5).trans ((Region3.final5 (V7 m ρ) c).trans (by
    show logits (hidden (W7 (F := Ideal) m ρ c (Proc.devRef .tc main_v44_1)) (W7 (F := Ideal) m ρ c (Proc.devRef .tc main_v54)) (W7 (F := Ideal) m ρ c (Proc.devRef .tc main_v57))) (W7 (F := Ideal) m ρ c (Proc.devRef .tc main_arg6)) (W7 (F := Ideal) m ρ c (Proc.devRef .tc main_v58)) = _
    rw [w7_main_v44_1, w7_main_v54, w7_main_v57, w7_main_arg6, w7_main_v58]; rfl))

/-! ## After the last host stretch: the result -/

/-- THE RESULT BUFFER at the last boundary is the network of the launch memory's argument arrays. -/
theorem w9_main_v60 : (W9 (F := Ideal) m ρ c (Proc.devRef .tc main_v60) : S10000.Idx → EReal)
    = result (a0 m c) (a1 m c) (a2 m c) (a3 m c) (a4 m c) (a5 m c) (a6 m c) (a7 m c) := by
  dsimp only [W9, hostOps4]
  after_results
  rw [w8_main_v59]
  rfl

end Cert.KernelIdeal.Chain

end
-- ==== Proof.Bridge.lean ====
import proofs.«179397_j16784732192966_1_alg».proof.Proof.Gen.ReferenceIdeal.Read
import proofs.«179397_j16784732192966_1_alg».proof.Proof.Net

/-!
# The reference's stages are the network's

The reference computes, per layer, `relu ((h · W_self + agg) + b)` with `agg` the per-edge messages `h[src] · W_nbr`
summed into their target rows. Stage by stage its terms are the functions of `Net`:
* its index columns, zero array, weight matrices are the same operations of the same arguments;
* a `dot_general` of a plain product is `mmRows` (`dotGeneralRows_eq`), a `maximum` against the broadcast zero is
  `relu`, the bias broadcast to every row reads the bias row at the column;
* THE ONE LAW: gathering rows commutes with a product on the right, `h[src] · W = (h · W)[src]`
  (`gatherRows_mmRows`) — row `e` of either side is row `src e` of `h` times `W` — so the reference's messages are
  the network's, and the sums into the target rows are sums of the same terms.
No cancellation, distribution or reordering of a sum is used: the two sides agree index by index on all extended reals.
-/

set_option maxRecDepth 16384

noncomputable section

namespace Cert.Bridge

open Cert.KernelIdeal Cert.KernelIdeal.Net Cert.ReferenceIdeal.Read
open Idealize.ShloMosaic Idealize.ShloMosaic.ValueIdx
open Cert.Gnn Cert.LibMatmulRows Cert.LibIndexOps

variable (x0 : S10000x16.Idx → EReal) (x1 : IVec S2x640000 32) (x2 : S16x128.Idx → EReal)
  (x3 x4 : S3x128x128.Idx → EReal) (x5 : S3x128.Idx → EReal) (x6 : S128x1.Idx → EReal) (x7 : S1.Idx → EReal)

/-! ## The same operations of the same arguments -/

theorem ref_srcIdx0 : val_main_v11 (F := Ideal) x1 = srcIdx x1 := rfl
theorem ref_srcIdx1 : val_main_v34 (F := Ideal) x1 = srcIdx x1 := rfl
theorem ref_srcIdx2 : val_main_v57 (F := Ideal) x1 = srcIdx x1 := rfl
theorem ref_dstIdx0 : val_main_v17 (F := Ideal) x1 = dstIdx x1 := rfl
theorem ref_dstIdx1 : val_main_v40 (F := Ideal) x1 = dstIdx x1 := rfl
theorem ref_dstIdx2 : val_main_v63 (F := Ideal) x1 = dstIdx x1 := rfl
theorem ref_zeros0 : val_main_v16 (F := Ideal) = zeros := rfl
theorem ref_zeros1 : val_main_v39 (F := Ideal) = zeros := rfl
theorem ref_zeros2 : val_main_v62 (F := Ideal) = zeros := rfl
theorem ref_wn0 : val_main_v14 (F := Ideal) x4 = wn0 x4 := rfl
theorem ref_wn1 : val_main_v37 (F := Ideal) x4 = wn1 x4 := rfl
theorem ref_wn2 : val_main_v60 (F := Ideal) x4 = wn2 x4 := rfl
theorem ref_ws0 : val_main_v20 (F := Ideal) x3 = ws0 x3 := rfl
theorem ref_ws1 : val_main_v43 (F := Ideal) x3 = ws1 x3 := rfl
theorem ref_ws2 : val_main_v66 (F := Ideal) x3 = ws2 x3 := rfl

/-! ## `maximum` against the broadcast zero is `relu` -/

theorem ref_relu0 (A : S10000x128.Idx → EReal) :
    maximumf (F := Ideal) (φ := .f32) A (val_main_call0_v0 (F := Ideal)) = relu A := by
  funext i
  show max (A i) (val_main_call0_v0 (F := Ideal) i) = max (A i) _
  rw [val_main_call0_v0_apply]; rfl

theorem ref_relu1 (A : S10000x128.Idx → EReal) :
    maximumf (F := Ideal) (φ := .f32) A (val_main_call1_v0 (F := Ideal)) = relu A := by
  funext i
  show max (A i) (val_main_call1_v0 (F := Ideal) i) = max (A i) _
  rw [val_main_call1_v0_apply]; rfl

theorem ref_relu2 (A : S10000x128.Idx → EReal) :
    maximumf (F := Ideal) (φ := .f32) A (val_main_call2_v0 (F := Ideal)) = relu A := by
  funext i
  show max (A i) (val_main_call2_v0 (F := Ideal) i) = max (A i) _
  rw [val_main_call2_v0_apply]; rfl

theorem ref_relu3 (A : S10000x128.Idx → EReal) :
    maximumf (F := Ideal) (φ := .f32) A (val_main_call3_v0 (F := Ideal)) = relu A := by
  funext i
  show max (A i) (val_main_call3_v0 (F := Ideal) i) = max (A i) _
  rw [val_main_call3_v0_apply]; rfl

/-! ## The embedding -/

theorem ref_h0 : val_main_v1 (F := Ideal) x0 x2 = h0 x0 x2 :=
  (ref_relu0 _).trans (congrArg relu
    (dotGeneralRows_eq Cert.ReferenceIdeal.Facts₀.dot_S10000x16_S16x128_S10000x128_1_0_0_1_n_n_wf none .single x0 x2))

/-! ## The bias rows -/

/-- Bias row `0` of the network at column `c` is entry `(0, c)` of the bias array. -/
theorem brow0_apply (c : Fin 128) : brow0 x5 (ix2 (n0 := 1) (n1 := 128) 0 c) = x5 (ix2 (n0 := 3) (n1 := 128) 0 c) := by
  unfold brow0
  refine (shapeCast_apply _ _ (ix2 (n0 := 1) (n1 := 128) 0 c) (ix1 c) ?_).trans ?_
  · rewrite [Shape.rowMajor_val_two, Shape.rowMajor_val_one]; show c.val = 0 * 128 + c.val; omega
  refine (shapeCast_apply _ _ (ix1 c) (ix2 (n0 := 1) (n1 := 128) 0 c) ?_).trans ?_
  · rewrite [Shape.rowMajor_val_two, Shape.rowMajor_val_one]; show 0 * 128 + c.val = c.val; omega
  exact extractStridedSlice_apply ![0, 0] x5 _ (ix2 (n0 := 1) (n1 := 128) 0 c) (ix2 (n0 := 3) (n1 := 128) 0 c) (fun a => match a with
    | ⟨0, _⟩ => by show (0 : Nat) = 0 + 0; rfl
    | ⟨1, _⟩ => by show c.val = 0 + c.val; omega)

/-- The reference's bias for layer `0`, broadcast to every node, at `(r, c)` is the network's bias row at `c`. -/
theorem ref_bias0 (r : Fin 10000) (c : Fin 128) :
    val_main_v26 (F := Ideal) x5 (ix2 (n0 := 10000) (n1 := 128) r c) = brow0 x5 (ix2 (n0 := 1) (n1 := 128) 0 c) := by
  rw [brow0_apply, val_main_v26_apply, val_main_v25_apply, val_main_v24_apply, val_main_v23_apply]
  refine congrArg x5 (funext fun a => Fin.ext ?_)
  match a with
  | ⟨0, _⟩ => rfl
  | ⟨1, _⟩ => show c.val % 128 = c.val; have := c.isLt; omega

/-- Bias row `1` of the network at column `c` is entry `(1, c)` of the bias array. -/
theorem brow1_apply (c : Fin 128) : brow1 x5 (ix2 (n0 := 1) (n1 := 128) 0 c) = x5 (ix2 (n0 := 3) (n1 := 128) 1 c) := by
  unfold brow1
  refine (shapeCast_apply _ _ (ix2 (n0 := 1) (n1 := 128) 0 c) (ix1 c) ?_).trans ?_
  · rewrite [Shape.rowMajor_val_two, Shape.rowMajor_val_one]; show c.val = 0 * 128 + c.val; omega
  refine (shapeCast_apply _ _ (ix1 c) (ix2 (n0 := 1) (n1 := 128) 0 c) ?_).trans ?_
  · rewrite [Shape.rowMajor_val_two, Shape.rowMajor_val_one]; show 0 * 128 + c.val = c.val; omega
  exact extractStridedSlice_apply ![1, 0] x5 _ (ix2 (n0 := 1) (n1 := 128) 0 c) (ix2 (n0 := 3) (n1 := 128) 1 c) (fun a => match a with
    | ⟨0, _⟩ => by show (1 : Nat) = 1 + 0; rfl
    | ⟨1, _⟩ => by show c.val = 0 + c.val; omega)

/-- The reference's bias for layer `1`, broadcast to every node, at `(r, c)` is the network's bias row at `c`. -/
theorem ref_bias1 (r : Fin 10000) (c : Fin 128) :
    val_main_v49 (F := Ideal) x5 (ix2 (n0 := 10000) (n1 := 128) r c) = brow1 x5 (ix2 (n0 := 1) (n1 := 128) 0 c) := by
  rw [brow1_apply, val_main_v49_apply, val_main_v48_apply, val_main_v47_apply, val_main_v46_apply]
  refine congrArg x5 (funext fun a => Fin.ext ?_)
  match a with
  | ⟨0, _⟩ => rfl
  | ⟨1, _⟩ => show c.val % 128 = c.val; have := c.isLt; omega

/-- Bias row `2` of the network at column `c` is entry `(2, c)` of the bias array. -/
theorem brow2_apply (c : Fin 128) : brow2 x5 (ix2 (n0 := 1) (n1 := 128) 0 c) = x5 (ix2 (n0 := 3) (n1 := 128) 2 c) := by
  unfold brow2
  refine (shapeCast_apply _ _ (ix2 (n0 := 1) (n1 := 128) 0 c) (ix1 c) ?_).trans ?_
  · rewrite [Shape.rowMajor_val_two, Shape.rowMajor_val_one]; show c.val = 0 * 128 + c.val; omega
  refine (shapeCast_apply _ _ (ix1 c) (ix2 (n0 := 1) (n1 := 128) 0 c) ?_).trans ?_
  · rewrite [Shape.rowMajor_val_two, Shape.rowMajor_val_one]; show 0 * 128 + c.val = c.val; omega
  exact extractStridedSlice_apply ![2, 0] x5 _ (ix2 (n0 := 1) (n1 := 128) 0 c) (ix2 (n0 := 3) (n1 := 128) 2 c) (fun a => match a with
    | ⟨0, _⟩ => by show (2 : Nat) = 2 + 0; rfl
    | ⟨1, _⟩ => by show c.val = 0 + c.val; omega)

/-- The reference's bias for layer `2`, broadcast to every node, at `(r, c)` is the network's bias row at `c`. -/
theorem ref_bias2 (r : Fin 10000) (c : Fin 128) :
    val_main_v72 (F := Ideal) x5 (ix2 (n0 := 10000) (n1 := 128) r c) = brow2 x5 (ix2 (n0 := 1) (n1 := 128) 0 c) := by
  rw [brow2_apply, val_main_v72_apply, val_main_v71_apply, val_main_v70_apply, val_main_v69_apply]
  refine congrArg x5 (funext fun a => Fin.ext ?_)
  match a with
  | ⟨0, _⟩ => rfl
  | ⟨1, _⟩ => show c.val % 128 = c.val; have := c.isLt; omega

/-! ## One layer, from any node state `H` -/

/-- The reference's layer from a node state `H` — `relu ((H · W_self + agg) + bias)` with the messages `H[src] · W_nbr`
    summed into their target rows — is the network's `hidden (H · W_self) (agg (H · W_nbr)) row`: each `dot_general`
    is the product, and the messages `H[src] · W_nbr` are `(H · W_nbr)[src]`, row by row. -/
theorem layer_eq (H : S10000x128.Idx → EReal) (Ws Wn : S128x128.Idx → EReal) (bias : S10000x128.Idx → EReal)
    (brow : S1x128.Idx → EReal)
    (hb : ∀ (r : Fin 10000) (c : Fin 128), bias (ix2 (n0 := 10000) (n1 := 128) r c) = brow (ix2 (n0 := 1) (n1 := 128) 0 c)) :
    relu (addf (F := Ideal) (φ := .f32)
        (addf (F := Ideal) (φ := .f32)
          (Host.dotGeneral (F := Ideal) (φ₁ := .f32) (φ₂ := .f32) Cert.ReferenceIdeal.dot_S10000x128_S128x128_S10000x128_1_0_0_1_n_n none H Ws)
          (Host.scatterAdd (F := Ideal) (φ := .f32) Cert.ReferenceIdeal.scatter_S10000x128_S640000x1_S640000x128_1_0_0_1 zeros (dstIdx x1)
            (Host.dotGeneral (F := Ideal) (φ₁ := .f32) (φ₂ := .f32) Cert.ReferenceIdeal.dot_S640000x128_S128x128_S640000x128_1_0_0_1_n_n none
              (Host.gather (α := EReal) Cert.ReferenceIdeal.gather_S10000x128_S640000x1_S640000x128_1_0_n_n_0_1_1128 H (srcIdx x1)) Wn)))
        bias)
      = hidden (mmRows H Ws) (agg x1 (mmRows H Wn)) brow := by
  have e1 : Host.dotGeneral (F := Ideal) (φ₁ := .f32) (φ₂ := .f32) Cert.ReferenceIdeal.dot_S10000x128_S128x128_S10000x128_1_0_0_1_n_n none H Ws = mmRows H Ws :=
    dotGeneralRows_eq Cert.ReferenceIdeal.Facts₀.dot_S10000x128_S128x128_S10000x128_1_0_0_1_n_n_wf none .single H Ws
  have e2 : Host.dotGeneral (F := Ideal) (φ₁ := .f32) (φ₂ := .f32) Cert.ReferenceIdeal.dot_S640000x128_S128x128_S640000x128_1_0_0_1_n_n none
        (Host.gather (α := EReal) Cert.ReferenceIdeal.gather_S10000x128_S640000x1_S640000x128_1_0_n_n_0_1_1128 H (srcIdx x1)) Wn
      = Host.gather (α := EReal) Cert.KernelIdeal.gather_S10000x128_S640000x1_S640000x128_1_0_n_n_0_1_1128 (mmRows H Wn) (srcIdx x1) :=
    (dotGeneralRows_eq Cert.ReferenceIdeal.Facts₀.dot_S640000x128_S128x128_S640000x128_1_0_0_1_n_n_wf none .single _ Wn).trans
      (gatherRows_mmRows (by decide) Cert.KernelIdeal.Facts₀.gather_S10000x128_S640000x1_S640000x128_1_0_n_n_0_1_1128_wf
        Cert.ReferenceIdeal.Facts₀.gather_S10000x128_S640000x1_S640000x128_1_0_n_n_0_1_1128_wf H Wn (srcIdx x1)).symm
  rw [e1, e2]
  unfold Cert.Gnn.hidden Cert.KernelIdeal.Net.agg
  refine congrArg relu (funext fun i => ?_)
  obtain ⟨r, c, rfl⟩ : ∃ (r : Fin 10000) (c : Fin 128), i = ix2 r c := ⟨i 0, i 1, eq_ix2 i⟩
  show (mmRows H Ws (ix2 r c) + _) + bias (ix2 r c) = (mmRows H Ws (ix2 r c) + _) + brow (ix2 0 c)
  rw [hb r c]
  rfl

/-! ## The three layers -/

/-- The reference's node state after layer `0` is the network's. -/
theorem ref_h1 : val_main_v28 (F := Ideal) x0 x1 x2 x3 x4 x5 = h1 x0 x1 x2 x3 x4 x5 := by
  have e := (ref_relu1 (val_main_v27 (F := Ideal) x0 x1 x2 x3 x4 x5)).trans
    (layer_eq x1 (val_main_v1 (F := Ideal) x0 x2) (ws0 x3) (wn0 x4) (val_main_v26 (F := Ideal) x5) (brow0 x5) (ref_bias0 x5))
  rw [ref_h0 x0 x2] at e
  exact e

/-- The reference's node state after layer `1` is the network's. -/
theorem ref_h2 : val_main_v51 (F := Ideal) x0 x1 x2 x3 x4 x5 = h2 x0 x1 x2 x3 x4 x5 := by
  have e := (ref_relu2 (val_main_v50 (F := Ideal) x0 x1 x2 x3 x4 x5)).trans
    (layer_eq x1 (val_main_v28 (F := Ideal) x0 x1 x2 x3 x4 x5) (ws1 x3) (wn1 x4) (val_main_v49 (F := Ideal) x5) (brow1 x5) (ref_bias1 x5))
  rw [ref_h1 x0 x1 x2 x3 x4 x5] at e
  exact e

/-- The reference's node state after layer `2` is the network's. -/
theorem ref_h3 : val_main_v74 (F := Ideal) x0 x1 x2 x3 x4 x5 = h3 x0 x1 x2 x3 x4 x5 := by
  have e := (ref_relu3 (val_main_v73 (F := Ideal) x0 x1 x2 x3 x4 x5)).trans
    (layer_eq x1 (val_main_v51 (F := Ideal) x0 x1 x2 x3 x4 x5) (ws2 x3) (wn2 x4) (val_main_v72 (F := Ideal) x5) (brow2 x5) (ref_bias2 x5))
  rw [ref_h2 x0 x1 x2 x3 x4 x5] at e
  exact e

/-! ## The result -/

/-- The reference's result — the output column `h3 · W_out` flattened, plus the output bias at every node — is the
    network's: the flattened column `h3 · W_out + b_out`. -/
theorem ref_result : val_main_v79 (F := Ideal) x0 x1 x2 x3 x4 x5 x6 x7 = result x0 x1 x2 x3 x4 x5 x6 x7 := by
  funext i
  obtain ⟨n, rfl⟩ : ∃ n : Fin 10000, i = ix1 n := ⟨i 0, eq_ix1 i⟩
  have ecol : val_main_v75 (F := Ideal) x0 x1 x2 x3 x4 x5 x6 = mmRows (h3 x0 x1 x2 x3 x4 x5) x6 := by
    have e := dotGeneralRows_eq (φ₁ := .f32) (φ₂ := .f32) Cert.ReferenceIdeal.Facts₀.dot_S10000x128_S128x1_S10000x1_1_0_0_1_n_n_wf none .single
      (val_main_v74 (F := Ideal) x0 x1 x2 x3 x4 x5) x6
    refine e.trans ?_
    rw [ref_h3]
  have eb : val_main_v77 (F := Ideal) x7 (idx_main_v78 (ix1 n)) = bout x7 (ix2 (n0 := 1) (n1 := 1) 0 0) := by
    unfold val_main_v77 bout
    refine (shapeCast_apply x7 _ (idx_main_v78 (ix1 n)) (ix1 (n := 1) 0) ?_).trans
      (shapeCast_apply x7 _ (ix2 (n0 := 1) (n1 := 1) 0 0) (ix1 (n := 1) 0) ?_).symm
    · rewrite [Shape.rowMajor_val_one]
      have h := (Cert.ReferenceIdeal.S_.rowMajor (idx_main_v78 (ix1 n))).isLt
      have h1 : Cert.ReferenceIdeal.S_.numel = 1 := rfl
      show (0 : Nat) = _
      omega
    · rewrite [Shape.rowMajor_val_one, Shape.rowMajor_val_two]; rfl
  have ei : idx_main_v76 (ix1 n) = ix2 (n0 := 10000) (n1 := 1) n 0 := funext fun a => Fin.ext (by
    match a with
    | ⟨0, _⟩ => show n.val / 1 = n.val; omega
    | ⟨1, _⟩ => rfl)
  rw [val_main_v79_apply, val_main_v76_apply, val_main_v78_apply, ecol, eb, ei]
  unfold result
  rw [shapeCast_apply (logits (h3 x0 x1 x2 x3 x4 x5) x6 (bout x7)) _ (ix1 n) (ix2 (n0 := 10000) (n1 := 1) n 0)
    (by rewrite [Shape.rowMajor_val_two, Shape.rowMajor_val_one]; show n.val * 1 + 0 = n.val; omega)]
  rfl

end Cert.Bridge

end
-- ==== Proof.lean ====
/-
  A three-layer message-passing network over ten thousand nodes and 640 000 edges: `h0 = relu (x · W_in)`, each layer
  `h ↦ relu ((h · W_self + agg) + b)` with `agg` the per-edge messages summed into their target nodes, and the output
  column `h3 · W_out + b_out`.

  The two programs differ in ONE place. The reference gathers the source nodes' states and multiplies each of the
  640 000 rows by the neighbour weights, `h[src] · W_nbr`; the kernel multiplies the ten thousand node states once,
  `h · W_nbr`, in a region tiled in ten blocks of a thousand rows, and gathers the products, `(h · W_nbr)[src]`. Row `e`
  of either array is row `src e` of `h` times `W_nbr`: gathering rows commutes with a product on the right, entry by
  entry, with no condition on the values. Everything else is the same operation on both sides once each is read on the
  extended reals: a change of float format is the identity, a product into the zero accumulator and the host's
  `dot_general` are the same sum over the contracted axis, a block of rows of a row-wise function of whole arrays is
  that function of the block of rows, and ten blocks of a thousand rows tile ten thousand rows.

  So the idealized kernel's result buffer ends at `Net.result` of the eight argument arrays (its run, read boundary by
  boundary through the five host stretches and four regions), the idealized reference's at its own composed term,
  which is `Net.result` of ITS argument arrays stage by stage, and the two memories agree on the arguments. The
  precondition is never opened: no step cancels, distributes or reorders a sum.
-/
import proofs.«179397_j16784732192966_1_alg».proof.Defs
import proofs.«179397_j16784732192966_1_alg».proof.Proof.Gen.Kernel
import proofs.«179397_j16784732192966_1_alg».proof.Proof.Gen.Kernel.Skeleton
import proofs.«179397_j16784732192966_1_alg».proof.Proof.Gen.Kernel.Launch
import proofs.«179397_j16784732192966_1_alg».proof.Proof.Gen.Kernel.Points
import proofs.«179397_j16784732192966_1_alg».proof.Proof.Gen.Kernel.Frame
import proofs.«179397_j16784732192966_1_alg».proof.Proof.Gen.KernelIdeal
import proofs.«179397_j16784732192966_1_alg».proof.Proof.Gen.KernelIdeal.Skeleton
import proofs.«179397_j16784732192966_1_alg».proof.Proof.Gen.KernelIdeal.Launch
import proofs.«179397_j16784732192966_1_alg».proof.Proof.Gen.KernelIdeal.Points
import proofs.«179397_j16784732192966_1_alg».proof.Proof.Gen.KernelIdeal.Frame
import proofs.«179397_j16784732192966_1_alg».proof.Proof.Gen.ReferenceIdeal
import proofs.«179397_j16784732192966_1_alg».proof.Proof.Gen.ReferenceIdeal.Run
import proofs.«179397_j16784732192966_1_alg».proof.Proof.Gen.ReferenceIdeal.Read
import proofs.«179397_j16784732192966_1_alg».proof.Proof.Gen.Pre_finite_inputs
import proofs.«179397_j16784732192966_1_alg».proof.Proof.RunResult
import proofs.«179397_j16784732192966_1_alg».proof.Proof.Chain
import proofs.«179397_j16784732192966_1_alg».proof.Proof.Bridge
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories agreeing on the arguments both idealized programs end with the network of those arguments in their
    result buffer. -/
theorem algebraic : Cert.algebraic_KernelIdeal_ReferenceIdeal := by
  intro m ρ m' ρ' _ hagree
  refine ⟨fun c => Cert.KernelIdeal.Net.result (Cert.KernelIdeal.Chain.a0 m c) (Cert.KernelIdeal.Chain.a1 m c)
      (Cert.KernelIdeal.Chain.a2 m c) (Cert.KernelIdeal.Chain.a3 m c) (Cert.KernelIdeal.Chain.a4 m c)
      (Cert.KernelIdeal.Chain.a5 m c) (Cert.KernelIdeal.Chain.a6 m c) (Cert.KernelIdeal.Chain.a7 m c), ?_, ?_⟩
  · exact (θ_run Cert.KernelIdeal.defs _ _).mono
      (fun r h c => ⟨(h c).1.trans (Cert.KernelIdeal.Chain.w9_main_v60 m ρ c), (h c).2⟩)
      (Cert.KernelIdeal.RunResult.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v79_eq, e0, e1, e2, e3, e4, e5, e6, e7]
    exact Cert.Bridge.ref_result _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
